-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1280 : Shape := ⟨3, ![16, 4096, 1280]⟩
abbrev S16x77x768 : Shape := ⟨3, ![16, 77, 768]⟩
abbrev S1280x1280 : Shape := ⟨2, ![1280, 1280]⟩
abbrev S1280x768 : Shape := ⟨2, ![1280, 768]⟩
abbrev S1280 : Shape := ⟨1, ![1280]⟩
abbrev S_ : Shape := ⟨0, ![]⟩

class Facts : Prop where
  bcast_S_S16x4096x1280 : S_.BroadcastsInDim S16x4096x1280 (![] : Fin 0 → Fin S16x4096x1280.rank)
  reducesTo_S16x4096x1280_S_d0_1_2 : S16x4096x1280.ReducesTo [0, 1, 2] S_
  h_S_ : 0 < S_.numel
  bcast_S_S16x77x768 : S_.BroadcastsInDim S16x77x768 (![] : Fin 0 → Fin S16x77x768.rank)
  reducesTo_S16x77x768_S_d0_1_2 : S16x77x768.ReducesTo [0, 1, 2] S_
  bcast_S_S1280x1280 : S_.BroadcastsInDim S1280x1280 (![] : Fin 0 → Fin S1280x1280.rank)
  reducesTo_S1280x1280_S_d0_1 : S1280x1280.ReducesTo [0, 1] S_
  bcast_S_S1280x768 : S_.BroadcastsInDim S1280x768 (![] : Fin 0 → Fin S1280x768.rank)
  reducesTo_S1280x768_S_d0_1 : S1280x768.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280x768 .f32) (main_arg5 : FVec F S1280x1280 .f32) (main_arg6 : FVec F S1280 .f32) (main_v13 : IVec S_ 1) (main_v16 : IVec S1280x768 1) : IVec S_ 1 :=
  let main_c_5 : IVec S_ 1 := constantI S_ 1 1#1
  let main_v17 : IVec S_ 1 := (fun x v => Host.reduce IntOp.andi x v reducesTo_S1280x768_S_d0_1 h_S_) main_v16 main_c_5
  let main_v18 : IVec S_ 1 := andi main_v13 main_v17
  let main_v19 : FVec F S1280x768 .f32 := Host.absf main_arg4
  let main_cst_6 : FVec F S_ .f32 := constant S_ .f32 0x7F800000#32
  let main_v20 : FVec F S1280x768 .f32 := broadcastInDim S1280x768 ![] bcast_S_S1280x768 main_cst_6
  let main_v21 : IVec S1280x768 1 := cmpf .olt main_v19 main_v20
  let main_c_7 : IVec S_ 1 := constantI S_ 1 1#1
  let main_v22 : IVec S_ 1 := (fun x v => Host.reduce IntOp.andi x v reducesTo_S1280x768_S_d0_1 h_S_) main_v21 main_c_7
  let main_v23 : IVec S_ 1 := andi main_v18 main_v22
  let main_v24 : FVec F S1280x1280 .f32 := Host.absf main_arg5
  let main_cst_8 : FVec F S_ .f32 := constant S_ .f32 0x7F800000#32
  let main_v25 : FVec F S1280x1280 .f32 := broadcastInDim S1280x1280 ![] bcast_S_S1280x1280 main_cst_8
  let main_v26 : IVec S1280x1280 1 := cmpf .olt main_v24 main_v25
  let main_c_9 : IVec S_ 1 := constantI S_ 1 1#1
  let main_v27 : IVec S_ 1 := (fun x v => Host.reduce IntOp.andi x v reducesTo_S1280x1280_S_d0_1 h_S_) main_v26 main_c_9
  let main_v28 : IVec S_ 1 := andi main_v23 main_v27
  let main_v29 : FVec F S1280 .f32 := Host.absf main_arg6
  let main_cst_10 : FVec F S_ .f32 := constant S_ .f32 0x7F800000#32
  let main_v30 : FVec F S1280 .f32 := broadcastInDim S1280 ![] bcast_S_S1280 main_cst_10
  let main_v31 : IVec S1280 1 := cmpf .olt main_v29 main_v30
  let main_c_11 : IVec S_ 1 := constantI S_ 1 1#1
  let main_v32 : IVec S_ 1 := (fun x v => Host.reduce IntOp.andi x v reducesTo_S1280_S_d0 h_S_) main_v31 main_c_11
  let main_v33 : IVec S_ 1 := andi main_v28 main_v32
  main_v33

def fn {F : FTy → Type} [FloatOps F] (main_arg0 : FVec F S16x4096x1280 .f32) (main_arg1 : FVec F S16x77x768 .f32) (main_arg2 : FVec F S1280x1280 .f32) (main_arg3 : FVec F S1280x768 .f32) (main_arg4 : FVec F S1280x768 .f32) (main_arg5 : FVec F S1280x1280 .f32) (main_arg6 : FVec F S1280 .f32) : IVec S_ 1 :=
  let main_v0 : FVec F S16x4096x1280 .f32 := Host.absf main_arg0
  let main_cst : FVec F S_ .f32 := constant S_ .f32 0x7F800000#32
  let main_v1 : FVec F S16x4096x1280 .f32 := broadcastInDim S16x4096x1280 ![] bcast_S_S16x4096x1280 main_cst
  let main_v2 : IVec S16x4096x1280 1 := cmpf .olt main_v0 main_v1
  let main_c : IVec S_ 1 := constantI S_ 1 1#1
  let main_v3 : IVec S_ 1 := (fun x v => Host.reduce IntOp.andi x v reducesTo_S16x4096x1280_S_d0_1_2 h_S_) main_v2 main_c
  let main_v4 : FVec F S16x77x768 .f32 := Host.absf main_arg1
  let main_cst_0 : FVec F S_ .f32 := constant S_ .f32 0x7F800000#32
  let main_v5 : FVec F S16x77x768 .f32 := broadcastInDim S16x77x768 ![] bcast_S_S16x77x768 main_cst_0
  let main_v6 : IVec S16x77x768 1 := cmpf .olt main_v4 main_v5
  let main_c_1 : IVec S_ 1 := constantI S_ 1 1#1
  let main_v7 : IVec S_ 1 := (fun x v => Host.reduce IntOp.andi x v reducesTo_S16x77x768_S_d0_1_2 h_S_) main_v6 main_c_1
  let main_v8 : IVec S_ 1 := andi main_v3 main_v7
  let main_v9 : FVec F S1280x1280 .f32 := Host.absf main_arg2
  let main_cst_2 : FVec F S_ .f32 := constant S_ .f32 0x7F800000#32
  let main_v10 : FVec F S1280x1280 .f32 := broadcastInDim S1280x1280 ![] bcast_S_S1280x1280 main_cst_2
  let main_v11 : IVec S1280x1280 1 := cmpf .olt main_v9 main_v10
  let main_c_3 : IVec S_ 1 := constantI S_ 1 1#1
  let main_v12 : IVec S_ 1 := (fun x v => Host.reduce IntOp.andi x v reducesTo_S1280x1280_S_d0_1 h_S_) main_v11 main_c_3
  let main_v13 : IVec S_ 1 := andi main_v8 main_v12
  let main_v14 : FVec F S1280x768 .f32 := Host.absf main_arg3
  let main_cst_4 : FVec F S_ .f32 := constant S_ .f32 0x7F800000#32
  let main_v15 : FVec F S1280x768 .f32 := broadcastInDim S1280x768 ![] bcast_S_S1280x768 main_cst_4
  let main_v16 : IVec S1280x768 1 := cmpf .olt main_v14 main_v15
  fn_part1 (F := F) main_arg4 main_arg5 main_arg6 main_v13 main_v16
-- ==== Kernel.lean ====
abbrev S16x4096x1280 : Shape := ⟨3, ![16, 4096, 1280]⟩
abbrev S16x77x768 : Shape := ⟨3, ![16, 77, 768]⟩
abbrev S1280x1280 : Shape := ⟨2, ![1280, 1280]⟩
abbrev S1280x768 : Shape := ⟨2, ![1280, 768]⟩
abbrev S1280 : Shape := ⟨1, ![1280]⟩
abbrev S768x1280 : Shape := ⟨2, ![768, 1280]⟩
abbrev S1x1280 : Shape := ⟨2, ![1, 1280]⟩
abbrev S1232x768 : Shape := ⟨2, ![1232, 768]⟩
abbrev S1232x1280 : Shape := ⟨2, ![1232, 1280]⟩
abbrev S16x77x1280 : Shape := ⟨3, ![16, 77, 1280]⟩
abbrev S1x512x1280 : Shape := ⟨3, ![1, 512, 1280]⟩
abbrev S1x77x1280 : Shape := ⟨3, ![1, 77, 1280]⟩
abbrev S512x1280 : Shape := ⟨2, ![512, 1280]⟩
abbrev S77x1280 : Shape := ⟨2, ![77, 1280]⟩
abbrev S512x160 : Shape := ⟨2, ![512, 160]⟩
abbrev S77x160 : Shape := ⟨2, ![77, 160]⟩
abbrev S160x77 : Shape := ⟨2, ![160, 77]⟩
abbrev S512x77 : Shape := ⟨2, ![512, 77]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S16x4096x1280, .f32⟩
  | .hbm, ⟨1, _⟩ => ⟨S16x77x768, .f32⟩
  | .hbm, ⟨2, _⟩ => ⟨S1280x1280, .f32⟩
  | .hbm, ⟨3, _⟩ => ⟨S1280x768, .f32⟩
  | .hbm, ⟨4, _⟩ => ⟨S1280x768, .f32⟩
  | .hbm, ⟨5, _⟩ => ⟨S1280x1280, .f32⟩
  | .hbm, ⟨6, _⟩ => ⟨S1280, .f32⟩
  | .hbm, ⟨7, _⟩ => ⟨S1280x1280, .f32⟩
  | .hbm, ⟨8, _⟩ => ⟨S1280x1280, .bf16⟩
  | .hbm, ⟨9, _⟩ => ⟨S768x1280, .f32⟩
  | .hbm, ⟨10, _⟩ => ⟨S768x1280, .bf16⟩
  | .hbm, ⟨11, _⟩ => ⟨S768x1280, .f32⟩
  | .hbm, ⟨12, _⟩ => ⟨S768x1280, .bf16⟩
  | .hbm, ⟨13, _⟩ => ⟨S1280x1280, .f32⟩
  | .hbm, ⟨14, _⟩ => ⟨S1280x1280, .bf16⟩
  | .hbm, ⟨15, _⟩ => ⟨S1x1280, .f32⟩
  | .hbm, ⟨16, _⟩ => ⟨S1232x768, .f32⟩
  | .hbm, ⟨17, _⟩ => ⟨S1232x1280, .bf16⟩
  | .hbm, ⟨18, _⟩ => ⟨S1232x1280, .bf16⟩
  | .hbm, ⟨19, _⟩ => ⟨S16x77x1280, .bf16⟩
  | .hbm, ⟨20, _⟩ => ⟨S16x77x1280, .bf16⟩
  | .hbm, ⟨21, _⟩ => ⟨S16x4096x1280, .f32⟩
  | .local _ .vmem, ⟨0, _⟩ => ⟨S1232x768, .f32⟩
  | .local _ .vmem, ⟨1, _⟩ => ⟨S768x1280, .bf16⟩
  | .local _ .vmem, ⟨2, _⟩ => ⟨S1232x1280, .bf16⟩
  | .local _ .vmem, ⟨3, _⟩ => ⟨S1232x768, .f32⟩
  | .local _ .vmem, ⟨4, _⟩ => ⟨S768x1280, .bf16⟩
  | .local _ .vmem, ⟨5, _⟩ => ⟨S1232x1280, .bf16⟩
  | .local _ .vmem, ⟨6, _⟩ => ⟨S1x512x1280, .f32⟩
  | .local _ .vmem, ⟨7, _⟩ => ⟨S1x512x1280, .f32⟩
  | .local _ .vmem, ⟨8, _⟩ => ⟨S1280x1280, .bf16⟩
  | .local _ .vmem, ⟨9, _⟩ => ⟨S1x77x1280, .bf16⟩
  | .local _ .vmem, ⟨10, _⟩ => ⟨S1x77x1280, .bf16⟩
  | .local _ .vmem, ⟨11, _⟩ => ⟨S1x77x1280, .bf16⟩
  | .local _ .vmem, ⟨12, _⟩ => ⟨S1x77x1280, .bf16⟩
  | .local _ .vmem, ⟨13, _⟩ => ⟨S1280x1280, .bf16⟩
  | .local _ .vmem, ⟨14, _⟩ => ⟨S1x1280, .f32⟩
  | .local _ .vmem, ⟨15, _⟩ => ⟨S1x512x1280, .f32⟩
  | .local _ .vmem, ⟨16, _⟩ => ⟨S1x512x1280, .f32⟩
  | .local _ .vmem, ⟨17, _⟩ => ⟨S512x1280, .f32⟩
  | _, _ => ⟨S16x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg6_1 : Ref sig .tc := ⟨.vmem, 16, rfl⟩
abbrev cc2_scratch0 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10
abbrev cc2_sem3_0 : DmaSem sig := 11
abbrev cc2_sem3_1 : DmaSem sig := 12
abbrev cc2_sem4_0 : DmaSem sig := 13
abbrev cc2_sem5_0 : DmaSem sig := 14
abbrev cc2_sem6_0 : DmaSem sig := 15
abbrev cc2_sem6_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1232x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1232x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1232x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S768x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1232x1280 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1280x1280 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x77x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x77x1280 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1280x1280 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1280 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x1280 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  transposes_S1280x1280_S1280x1280_1_0 : S1280x1280.Transposes [1, 0] S1280x1280
  bitsLt_bf16_f32 : FTy.bits .bf16 < FTy.bits .f32
  transposes_S1280x768_S768x1280_1_0 : S1280x768.Transposes [1, 0] S768x1280
  shapeCasts_S1280_S1x1280 : S1280.ShapeCasts S1x1280
  shapeCasts_S16x77x768_S1232x768 : S16x77x768.ShapeCasts S1232x768
  inb_S1232x768_S1232x768_0_0 : ∀ a, (![0, 0] : Fin 2 → Nat) a + S1232x768.size a ≤ S1232x768.size a
  h_S1232x768 : 0 < S1232x768.numel
  shapeCasts_S1232x768_S1232x768 : S1232x768.ShapeCasts S1232x768
  inb_S768x1280_S768x1280_0_0 : ∀ a, (![0, 0] : Fin 2 → Nat) a + S768x1280.size a ≤ S768x1280.size a
  h_S768x1280 : 0 < S768x1280.numel
  shapeCasts_S768x1280_S768x1280 : S768x1280.ShapeCasts S768x1280
  inb_S1232x1280_S1232x1280_0_0 : ∀ a, (![0, 0] : Fin 2 → Nat) a + S1232x1280.size a ≤ S1232x1280.size a
  h_S1232x1280 : 0 < S1232x1280.numel
  packedbf16_S1232x1280_S1232x1280_0_0 : (Rect.unit (s := S1232x1280) ![0, 0] S1232x1280.size inb_S1232x1280_S1232x1280_0_0).PackedRows (EltTy.packing .bf16)
  shapeCasts_S1232x1280_S16x77x1280 : S1232x1280.ShapeCasts S16x77x1280
  inb_S1x512x1280_S1x512x1280_0_0_0 : ∀ a, (![0, 0, 0] : Fin 3 → Nat) a + S1x512x1280.size a ≤ S1x512x1280.size a
  h_S1x512x1280 : 0 < S1x512x1280.numel
  shapeCasts_S1x512x1280_S512x1280 : S1x512x1280.ShapeCasts S512x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x77x1280_S1x77x1280_0_0_0 : ∀ a, (![0, 0, 0] : Fin 3 → Nat) a + S1x77x1280.size a ≤ S1x77x1280.size a
  h_S1x77x1280 : 0 < S1x77x1280.numel
  shapeCasts_S1x77x1280_S77x1280 : S1x77x1280.ShapeCasts S77x1280
  slices_S512x1280_o0_0_S512x160 : S512x1280.Slices ![0, 0] S512x160
  slices_S77x1280_o0_0_S77x160 : S77x1280.Slices ![0, 0] S77x160
  transposes_S77x160_p1_0_S160x77 : S77x160.Transposes [1, 0] S160x77
  reduces_S512x77_S512 : S512x77.Reduces [1] S512
  shapeCasts_S512_S512x1 : S512.ShapeCasts S512x1
  broadcasts_S512x1_S512x77 : S512x1.Broadcasts S512x77
  inb_S512x1280_S512x160_0_0 : ∀ a, (![0, 0] : Fin 2 → Nat) a + S512x160.size a ≤ S512x1280.size a
  h_S512x160 : 0 < S512x160.numel
  shapeCasts_S512x160_S512x160 : S512x160.ShapeCasts S512x160
  slices_S512x1280_o0_160_S512x160 : S512x1280.Slices ![0, 160] S512x160
  slices_S77x1280_o0_160_S77x160 : S77x1280.Slices ![0, 160] S77x160
  inb_S512x1280_S512x160_0_160 : ∀ a, (![0, 160] : Fin 2 → Nat) a + S512x160.size a ≤ S512x1280.size a
  slices_S512x1280_o0_320_S512x160 : S512x1280.Slices ![0, 320] S512x160
  slices_S77x1280_o0_320_S77x160 : S77x1280.Slices ![0, 320] S77x160
  inb_S512x1280_S512x160_0_320 : ∀ a, (![0, 320] : Fin 2 → Nat) a + S512x160.size a ≤ S512x1280.size a
  slices_S512x1280_o0_480_S512x160 : S512x1280.Slices ![0, 480] S512x160
  slices_S77x1280_o0_480_S77x160 : S77x1280.Slices ![0, 480] S77x160
  inb_S512x1280_S512x160_0_480 : ∀ a, (![0, 480] : Fin 2 → Nat) a + S512x160.size a ≤ S512x1280.size a
  slices_S512x1280_o0_640_S512x160 : S512x1280.Slices ![0, 640] S512x160
  slices_S77x1280_o0_640_S77x160 : S77x1280.Slices ![0, 640] S77x160
  inb_S512x1280_S512x160_0_640 : ∀ a, (![0, 640] : Fin 2 → Nat) a + S512x160.size a ≤ S512x1280.size a
  slices_S512x1280_o0_800_S512x160 : S512x1280.Slices ![0, 800] S512x160
  slices_S77x1280_o0_800_S77x160 : S77x1280.Slices ![0, 800] S77x160
  inb_S512x1280_S512x160_0_800 : ∀ a, (![0, 800] : Fin 2 → Nat) a + S512x160.size a ≤ S512x1280.size a
  slices_S512x1280_o0_960_S512x160 : S512x1280.Slices ![0, 960] S512x160
  slices_S77x1280_o0_960_S77x160 : S77x1280.Slices ![0, 960] S77x160
  inb_S512x1280_S512x160_0_960 : ∀ a, (![0, 960] : Fin 2 → Nat) a + S512x160.size a ≤ S512x1280.size a
  slices_S512x1280_o0_1120_S512x160 : S512x1280.Slices ![0, 1120] S512x160
  slices_S77x1280_o0_1120_S77x160 : S77x1280.Slices ![0, 1120] S77x160
  inb_S512x1280_S512x160_0_1120 : ∀ a, (![0, 1120] : Fin 2 → Nat) a + S512x160.size a ≤ S512x1280.size a
  inb_S512x1280_S512x1280_0_0 : ∀ a, (![0, 0] : Fin 2 → Nat) a + S512x1280.size a ≤ S512x1280.size a
  h_S512x1280 : 0 < S512x1280.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  shapeCasts_S512x1280_S1x512x1280 : S512x1280.ShapeCasts S1x512x1280
  dot_S1232x768_S768x1280_S1232x1280_1_0_0_1_n_n_wf : DotDims.WF S1232x768 S768x1280 S1232x1280 [1] [0] [0] [1] [] []
  dot_S512x1280_S1280x1280_S512x1280_1_0_0_1_n_n_wf : DotDims.WF S512x1280 S1280x1280 S512x1280 [1] [0] [0] [1] [] []
  dot_S512x160_S160x77_S512x77_1_0_0_1_n_n_wf : DotDims.WF S512x160 S160x77 S512x77 [1] [0] [0] [1] [] []
  dot_S512x77_S77x160_S512x160_1_0_0_1_n_n_wf : DotDims.WF S512x77 S77x160 S512x160 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1232x768.size a ≤ S1232x768.size a
  hwx0_0 : ∀ i : grid0.Coords, EltTy.bits .f32 = 32 ∨ (Rect.block (s := S1232x768) S1232x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1280.size a ≤ S768x1280.size a
  hwx0_1 : ∀ i : grid0.Coords, EltTy.bits .bf16 = 32 ∨ (Rect.block (s := S768x1280) S768x1280.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1232x1280.size a ≤ S1232x1280.size a
  hwx0_2 : ∀ i : grid0.Coords, EltTy.bits .bf16 = 32 ∨ (Rect.block (s := S1232x1280) S1232x1280.size (cc0_transform_2 i) (hinb0_2 i)).WholeWords (EltTy.packing .bf16)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1232x768.size a ≤ S1232x768.size a
  hwx1_0 : ∀ i : grid1.Coords, EltTy.bits .f32 = 32 ∨ (Rect.block (s := S1232x768) S1232x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1280.size a ≤ S768x1280.size a
  hwx1_1 : ∀ i : grid1.Coords, EltTy.bits .bf16 = 32 ∨ (Rect.block (s := S768x1280) S768x1280.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1232x1280.size a ≤ S1232x1280.size a
  hwx1_2 : ∀ i : grid1.Coords, EltTy.bits .bf16 = 32 ∨ (Rect.block (s := S1232x1280) S1232x1280.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1280.size a ≤ S16x4096x1280.size a
  hwx2_0 : ∀ i : grid2.Coords, EltTy.bits .f32 = 32 ∨ (Rect.block (s := S16x4096x1280) S1x512x1280.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1280x1280.size a ≤ S1280x1280.size a
  hwx2_1 : ∀ i : grid2.Coords, EltTy.bits .bf16 = 32 ∨ (Rect.block (s := S1280x1280) S1280x1280.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x77x1280.size a ≤ S16x77x1280.size a
  hwx2_2 : ∀ i : grid2.Coords, EltTy.bits .bf16 = 32 ∨ (Rect.block (s := S16x77x1280) S1x77x1280.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x77x1280.size a ≤ S16x77x1280.size a
  hwx2_3 : ∀ i : grid2.Coords, EltTy.bits .bf16 = 32 ∨ (Rect.block (s := S16x77x1280) S1x77x1280.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1280x1280.size a ≤ S1280x1280.size a
  hwx2_4 : ∀ i : grid2.Coords, EltTy.bits .bf16 = 32 ∨ (Rect.block (s := S1280x1280) S1280x1280.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1280.size a ≤ S1x1280.size a
  hwx2_5 : ∀ i : grid2.Coords, EltTy.bits .f32 = 32 ∨ (Rect.block (s := S1x1280) S1x1280.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1280.size a ≤ S16x4096x1280.size a
  hwx2_6 : ∀ i : grid2.Coords, EltTy.bits .f32 = 32 ∨ (Rect.block (s := S16x4096x1280) S1x512x1280.size (cc2_transform_6 i) (hinb2_6 i)).WholeWords (EltTy.packing .f32)

variable [Facts₀]

def dot_S1232x768_S768x1280_S1232x1280_1_0_0_1_n_n : DotDims S1232x768 S768x1280 S1232x1280 where
  lhsContracting := [1]
  rhsContracting := [0]
  lhsNonContracting := [0]
  rhsNonContracting := [1]
  lhsBatch := []
  rhsBatch := []
  wf := dot_S1232x768_S768x1280_S1232x1280_1_0_0_1_n_n_wf
def dot_S512x1280_S1280x1280_S512x1280_1_0_0_1_n_n : DotDims S512x1280 S1280x1280 S512x1280 where
  lhsContracting := [1]
  rhsContracting := [0]
  lhsNonContracting := [0]
  rhsNonContracting := [1]
  lhsBatch := []
  rhsBatch := []
  wf := dot_S512x1280_S1280x1280_S512x1280_1_0_0_1_n_n_wf
def dot_S512x160_S160x77_S512x77_1_0_0_1_n_n : DotDims S512x160 S160x77 S512x77 where
  lhsContracting := [1]
  rhsContracting := [0]
  lhsNonContracting := [0]
  rhsNonContracting := [1]
  lhsBatch := []
  rhsBatch := []
  wf := dot_S512x160_S160x77_S512x77_1_0_0_1_n_n_wf
def dot_S512x77_S77x160_S512x160_1_0_0_1_n_n : DotDims S512x77 S77x160 S512x160 where
  lhsContracting := [1]
  rhsContracting := [0]
  lhsNonContracting := [0]
  rhsNonContracting := [1]
  lhsBatch := []
  rhsBatch := []
  wf := dot_S512x77_S77x160_S512x160_1_0_0_1_n_n_wf

abbrev win0_0 : Pipeline.Window sig grid0 :=
  Pipeline.Window.ofSpec (Memref.whole main_v9) S1232x768.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1232x1280.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1232x768.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S768x1280.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1232x1280.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1x512x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1280x1280.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x77x1280.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x77x1280.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1280x1280.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x1280.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x512x1280.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x4096x1280 : Shape := ⟨3, ![16, 4096, 1280]⟩
abbrev S16x77x768 : Shape := ⟨3, ![16, 77, 768]⟩
abbrev S1280x1280 : Shape := ⟨2, ![1280, 1280]⟩
abbrev S1280x768 : Shape := ⟨2, ![1280, 768]⟩
abbrev S1280 : Shape := ⟨1, ![1280]⟩
abbrev S16x77x1280 : Shape := ⟨3, ![16, 77, 1280]⟩
abbrev S16x4096x8x160 : Shape := ⟨4, ![16, 4096, 8, 160]⟩
abbrev S16x8x4096x160 : Shape := ⟨4, ![16, 8, 4096, 160]⟩
abbrev S16x77x8x160 : Shape := ⟨4, ![16, 77, 8, 160]⟩
abbrev S16x8x77x160 : Shape := ⟨4, ![16, 8, 77, 160]⟩
abbrev S16x8x4096x77 : Shape := ⟨4, ![16, 8, 4096, 77]⟩
abbrev S_ : Shape := ⟨0, ![]⟩
abbrev S16x8x4096 : Shape := ⟨3, ![16, 8, 4096]⟩
abbrev S16x8x4096x1 : Shape := ⟨4, ![16, 8, 4096, 1]⟩
abbrev S1x1x1280 : Shape := ⟨3, ![1, 1, 1280]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x1280, .f32⟩
  | .hbm, ⟨1, _⟩ => ⟨S16x77x768, .f32⟩
  | .hbm, ⟨2, _⟩ => ⟨S1280x1280, .f32⟩
  | .hbm, ⟨3, _⟩ => ⟨S1280x768, .f32⟩
  | .hbm, ⟨4, _⟩ => ⟨S1280x768, .f32⟩
  | .hbm, ⟨5, _⟩ => ⟨S1280x1280, .f32⟩
  | .hbm, ⟨6, _⟩ => ⟨S1280, .f32⟩
  | .hbm, ⟨7, _⟩ => ⟨S16x4096x1280, .f32⟩
  | .hbm, ⟨8, _⟩ => ⟨S16x77x1280, .f32⟩
  | .hbm, ⟨9, _⟩ => ⟨S16x77x1280, .f32⟩
  | .hbm, ⟨10, _⟩ => ⟨S16x4096x8x160, .f32⟩
  | .hbm, ⟨11, _⟩ => ⟨S16x8x4096x160, .f32⟩
  | .hbm, ⟨12, _⟩ => ⟨S16x77x8x160, .f32⟩
  | .hbm, ⟨13, _⟩ => ⟨S16x8x77x160, .f32⟩
  | .hbm, ⟨14, _⟩ => ⟨S16x77x8x160, .f32⟩
  | .hbm, ⟨15, _⟩ => ⟨S16x8x77x160, .f32⟩
  | .hbm, ⟨16, _⟩ => ⟨S16x8x4096x77, .f32⟩
  | .hbm, ⟨17, _⟩ => ⟨S_, .f32⟩
  | .hbm, ⟨18, _⟩ => ⟨S16x8x4096x77, .f32⟩
  | .hbm, ⟨19, _⟩ => ⟨S16x8x4096x77, .f32⟩
  | .hbm, ⟨20, _⟩ => ⟨S_, .f32⟩
  | .hbm, ⟨21, _⟩ => ⟨S16x8x4096, .f32⟩
  | .hbm, ⟨22, _⟩ => ⟨S_, .f32⟩
  | .hbm, ⟨23, _⟩ => ⟨S16x8x4096, .f32⟩
  | .hbm, ⟨24, _⟩ => ⟨S16x8x4096, .f32⟩
  | .hbm, ⟨25, _⟩ => ⟨S16x8x4096x1, .f32⟩
  | .hbm, ⟨26, _⟩ => ⟨S16x8x4096x77, .f32⟩
  | .hbm, ⟨27, _⟩ => ⟨S16x8x4096x77, .f32⟩
  | .hbm, ⟨28, _⟩ => ⟨S16x8x4096x77, .f32⟩
  | .hbm, ⟨29, _⟩ => ⟨S_, .f32⟩
  | .hbm, ⟨30, _⟩ => ⟨S16x8x4096, .f32⟩
  | .hbm, ⟨31, _⟩ => ⟨S16x8x4096x1, .f32⟩
  | .hbm, ⟨32, _⟩ => ⟨S16x8x4096x77, .f32⟩
  | .hbm, ⟨33, _⟩ => ⟨S16x8x4096x77, .f32⟩
  | .hbm, ⟨34, _⟩ => ⟨S16x8x4096x160, .f32⟩
  | .hbm, ⟨35, _⟩ => ⟨S16x4096x8x160, .f32⟩
  | .hbm, ⟨36, _⟩ => ⟨S16x4096x1280, .f32⟩
  | .hbm, ⟨37, _⟩ => ⟨S_, .f32⟩
  | .hbm, ⟨38, _⟩ => ⟨S16x4096x1280, .f32⟩
  | .hbm, ⟨39, _⟩ => ⟨S16x4096x1280, .f32⟩
  | .hbm, ⟨40, _⟩ => ⟨S16x4096x1280, .f32⟩
  | .hbm, ⟨41, _⟩ => ⟨S1x1x1280, .f32⟩
  | .hbm, ⟨42, _⟩ => ⟨S16x4096x1280, .f32⟩
  | .hbm, ⟨43, _⟩ => ⟨S16x4096x1280, .f32⟩
  | _, _ => ⟨S16x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S16x4096x1280_S16x4096x8x160 : S16x4096x1280.ShapeCasts S16x4096x8x160
  transposes_S16x4096x8x160_S16x8x4096x160_0_2_1_3 : S16x4096x8x160.Transposes [0, 2, 1, 3] S16x8x4096x160
  shapeCasts_S16x77x1280_S16x77x8x160 : S16x77x1280.ShapeCasts S16x77x8x160
  transposes_S16x77x8x160_S16x8x77x160_0_2_1_3 : S16x77x8x160.Transposes [0, 2, 1, 3] S16x8x77x160
  bcast_S_S16x8x4096x77 : S_.BroadcastsInDim S16x8x4096x77 (![] : Fin 0 → Fin S16x8x4096x77.rank)
  reducesTo_S16x8x4096x77_S16x8x4096_d3 : S16x8x4096x77.ReducesTo [3] S16x8x4096
  h_S_ : 0 < S_.numel
  bcast_S_S16x8x4096 : S_.BroadcastsInDim S16x8x4096 (![] : Fin 0 → Fin S16x8x4096.rank)
  bcast_S16x8x4096_S16x8x4096x1_0_1_2 : S16x8x4096.BroadcastsInDim S16x8x4096x1 (![0, 1, 2] : Fin 3 → Fin S16x8x4096x1.rank)
  bcast_S16x8x4096x1_S16x8x4096x77_0_1_2_3 : S16x8x4096x1.BroadcastsInDim S16x8x4096x77 (![0, 1, 2, 3] : Fin 4 → Fin S16x8x4096x77.rank)
  transposes_S16x8x4096x160_S16x4096x8x160_0_2_1_3 : S16x8x4096x160.Transposes [0, 2, 1, 3] S16x4096x8x160
  shapeCasts_S16x4096x8x160_S16x4096x1280 : S16x4096x8x160.ShapeCasts S16x4096x1280
  bcast_S_S16x4096x1280 : S_.BroadcastsInDim S16x4096x1280 (![] : Fin 0 → Fin S16x4096x1280.rank)
  bcast_S1280_S1x1x1280_2 : S1280.BroadcastsInDim S1x1x1280 (![2] : Fin 1 → Fin S1x1x1280.rank)
  bcast_S1x1x1280_S16x4096x1280_0_1_2 : S1x1x1280.BroadcastsInDim S16x4096x1280 (![0, 1, 2] : Fin 3 → Fin S16x4096x1280.rank)
  dot_S16x4096x1280_S1280x1280_S16x4096x1280_2_1_01_0_n_n_wf : DotDims.WF S16x4096x1280 S1280x1280 S16x4096x1280 [2] [1] [0, 1] [0] [] []
  dot_S16x77x768_S1280x768_S16x77x1280_2_1_01_0_n_n_wf : DotDims.WF S16x77x768 S1280x768 S16x77x1280 [2] [1] [0, 1] [0] [] []
  dot_S16x8x4096x160_S16x8x77x160_S16x8x4096x77_3_3_2_2_01_01_wf : DotDims.WF S16x8x4096x160 S16x8x77x160 S16x8x4096x77 [3] [3] [2] [2] [0, 1] [0, 1]
  dot_S16x8x4096x77_S16x8x77x160_S16x8x4096x160_3_2_2_3_01_01_wf : DotDims.WF S16x8x4096x77 S16x8x77x160 S16x8x4096x160 [3] [2] [2] [3] [0, 1] [0, 1]

variable [Facts₀]

def dot_S16x4096x1280_S1280x1280_S16x4096x1280_2_1_01_0_n_n : DotDims S16x4096x1280 S1280x1280 S16x4096x1280 where
  lhsContracting := [2]
  rhsContracting := [1]
  lhsNonContracting := [0, 1]
  rhsNonContracting := [0]
  lhsBatch := []
  rhsBatch := []
  wf := dot_S16x4096x1280_S1280x1280_S16x4096x1280_2_1_01_0_n_n_wf
def dot_S16x77x768_S1280x768_S16x77x1280_2_1_01_0_n_n : DotDims S16x77x768 S1280x768 S16x77x1280 where
  lhsContracting := [2]
  rhsContracting := [1]
  lhsNonContracting := [0, 1]
  rhsNonContracting := [0]
  lhsBatch := []
  rhsBatch := []
  wf := dot_S16x77x768_S1280x768_S16x77x1280_2_1_01_0_n_n_wf
def dot_S16x8x4096x160_S16x8x77x160_S16x8x4096x77_3_3_2_2_01_01 : DotDims S16x8x4096x160 S16x8x77x160 S16x8x4096x77 where
  lhsContracting := [3]
  rhsContracting := [3]
  lhsNonContracting := [2]
  rhsNonContracting := [2]
  lhsBatch := [0, 1]
  rhsBatch := [0, 1]
  wf := dot_S16x8x4096x160_S16x8x77x160_S16x8x4096x77_3_3_2_2_01_01_wf
def dot_S16x8x4096x77_S16x8x77x160_S16x8x4096x160_3_2_2_3_01_01 : DotDims S16x8x4096x77 S16x8x77x160 S16x8x4096x160 where
  lhsContracting := [3]
  rhsContracting := [2]
  lhsNonContracting := [2]
  rhsNonContracting := [3]
  lhsBatch := [0, 1]
  rhsBatch := [0, 1]
  wf := dot_S16x8x4096x77_S16x8x77x160_S16x8x4096x160_3_2_2_3_01_01_wf

class Facts : Prop extends Facts₀ where

variable [Facts]
-- ==== Proof.LibKeepdims3.lean ====
/-
  Keep-dimensions layout operations on the LAST axis of a rank-3 array, read at an index, and the normalisation of each
  row (last axis) to unit Euclidean length — at the ideal values.

  * an array [a, b] cast to [a, b, 1] reads, at (i, j, ·), the array at (i, j);
  * an array [a, b, 1] broadcast to [a, b, c] reads, at (i, j, k), the array at (i, j, 0);
  * a sum along the last axis of [a, b, c], at (i, j), is the sum over k of the entry (i, j, k);
  * dividing every entry by the larger of its row's Euclidean norm and a constant ε — as a kernel spells it: square,
    sum, recast, square root, maximum with the constant column, broadcast, divide — reads at (i, j, k) as
    x / max(√(Σ_q x_q²), ε) of the row x = (entry (i, j, q))_q alone.
  With rows indexed (head, position) this is the per-head normalisation of queries and keys in head-major layout.
  Any sizes; nothing is asked of the entries or of ε.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Keepdims3

open Idealize.ShloMosaic Idealize.ShloMosaic.ValueIdx

variable {α : Type} {a b c : ℕ}

/-- An array [a, b] cast to [a, b, 1] reads, at (i, j, u), the array at (i, j). -/
theorem shapeCast_ab_ab1_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, b, 1] broadcast to [a, b, c] reads, at (i, j, k), the array at (i, j, 0). -/
theorem broadcastTo_ab1_abc_apply (v : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum along the last axis: at (i, j), the sum over k of the entry (i, j, k). -/
theorem add_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => ?_
  exact congrArg src (funext fun d => Fin.ext (by match d with | ⟨0, _⟩ => rfl | ⟨1, _⟩ => rfl | ⟨2, _⟩ => rfl))

/-- A row divided by the larger of its Euclidean norm and ε. -/
def unitRow (x : Fin c → EReal) (eps : EReal) (k : Fin c) : EReal :=
  Ideal.div (x k) (max (Ideal.sqrt (∑ q, x q * x q)) eps)

/-- THE NORMALISED ARRAY read at (i, j, k): the row's entry over the larger of the row's norm and ε. -/
theorem unitRows_apply (x : FVec Ideal ⟨3, ![a, b, c]⟩ .f32)
    (hred : (⟨3, ![a, b, c]⟩ : Shape).Reduces [2] ⟨2, ![a, b]⟩) (hφ : FKind.Formats FTy.f32)
    (hacc : (0x00000000#32 : BitVec FTy.f32.bits) = FKind.add.neutral .f32 hφ)
    (hcast : (⟨2, ![a, b]⟩ : Shape).ShapeCasts ⟨3, ![a, b, 1]⟩)
    (hb : (⟨3, ![a, b, 1]⟩ : Shape).Broadcasts ⟨3, ![a, b, c]⟩) (eps : EReal)
    (i : Fin a) (j : Fin b) (k : Fin c) :
    divf x (broadcastTo ⟨3, ![a, b, c]⟩
        (maximumf (sqrt (shapeCast ⟨3, ![a, b, 1]⟩ (multiReduction .add [2] ⟨2, ![a, b]⟩ (mulf x x) 0x00000000#32 hred hφ hacc) hcast))
          (broadcast ⟨3, ![a, b, 1]⟩ eps)) hb) (ix3 i j k)
      = unitRow (fun q => x (ix3 i j q)) eps k := by
  unfold unitRow
  rw [divf_apply, broadcastTo_ab1_abc_apply, maximumf_apply, broadcast_apply]
  show Ideal.div _ (max (FloatOps.sqrt (shapeCast ⟨3, ![a, b, 1]⟩ (multiReduction .add [2] ⟨2, ![a, b]⟩ (mulf x x) 0x00000000#32 hred hφ hacc) hcast (ix3 i j (0 : Fin 1)))) eps) = _
  rw [shapeCast_ab_ab1_apply, add_axis2_apply]
  simp only [mulf_apply]
  rfl

end Cert.Lib.Keepdims3

end
-- ==== Proof.LibSoftmaxLast.lean ====
/-
  The two halves of a softmax over the LAST axis, read at an entry, at the ideal values — as a KERNEL spells them on a
  rank-3 block [a, b, c] and as the HOST (jax.nn.softmax) spells them on a rank-4 array [A, B, C, D].  Any sizes; nothing
  is asked of the entries.

  * THE SHIFT.  Both programs take each row's maximum from an initial word ι (−∞), then the larger of ι and that, and spread
    the number over the row.  Read at any entry of the row x this is  shiftOf x ι = max(ι, max-fold from ι of x).
  * THE NORMALISATION.  Given the array E of (already exponentiated) entries, both divide each entry by its row's sum,
    the sum taken from a zero word and spread over the row.  Read at entry k of the row this is  E_k / Σ_q E_q.

  A kernel spells the spreading as a cast [a, b] → [a, b, 1] and a broadcast to [a, b, c]; the host as two
  broadcast_in_dim, [A, B, C] → [A, B, C, 1] → [A, B, C, D]; the reductions are a vector multi-reduction on one side and a
  one-operand reduce on the other.  `weight` puts the two halves together: e^(x_k − M) / Σ_q e^(x_q − M).
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«130863_j42743514530014_2_alg».proof.Proof.LibKeepdims3

noncomputable section

namespace Cert.Lib.SoftmaxLast

open Idealize.ShloMosaic Idealize.ShloMosaic.ValueIdx Cert.Lib.Keepdims3

/-- The number subtracted from a row x: the larger of the initial value ι and the row's max-fold from ι. -/
def shiftOf {c : ℕ} (x : Fin c → EReal) (ι : EReal) : EReal := max ι ((Finset.univ : Finset (Fin c)).fold max ι x)

/-- The softmax weight of position k of the row x shifted by M. -/
def weight {c : ℕ} (x : Fin c → EReal) (M : EReal) (k : Fin c) : EReal :=
  Ideal.div (Ideal.exp (x k - M)) (∑ q, Ideal.exp (x q - M))

/-! ## A kernel's spelling, on a rank-3 block -/

section Kernel

variable {a b c : ℕ}

/-- The maximum along the last axis from the accumulator's word: at (i, j), the fold of `max` over k. -/
theorem max_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  refine (Ideal.multiReduction_maximumf_single src acc h hφ hacc (ix2 i j)).trans ?_
  refine Finset.fold_congr fun k _ => ?_
  exact congrArg src (funext fun d => Fin.ext (by match d with | ⟨0, _⟩ => rfl | ⟨1, _⟩ => rfl | ⟨2, _⟩ => rfl))

variable (hred : (⟨3, ![a, b, c]⟩ : Shape).Reduces [2] ⟨2, ![a, b]⟩) (hφ : FKind.Formats FTy.f32)
  (hcast : (⟨2, ![a, b]⟩ : Shape).ShapeCasts ⟨3, ![a, b, 1]⟩) (hb : (⟨3, ![a, b, 1]⟩ : Shape).Broadcasts ⟨3, ![a, b, c]⟩)

/-- The kernel's array of shifts: each row's `max(ι, max-fold from ι)`, spread over the row. -/
def kShift (ιBits : BitVec FTy.f32.bits) (hacc : ιBits = FKind.maximumf.neutral .f32 hφ) (src : FVec Ideal ⟨3, ![a, b, c]⟩ .f32) :
    FVec Ideal ⟨3, ![a, b, c]⟩ .f32 :=
  broadcastTo ⟨3, ![a, b, c]⟩
    (shapeCast ⟨3, ![a, b, 1]⟩
      (maximumf (broadcast ⟨2, ![a, b]⟩ (Scalar.ofBits (F := Ideal) .f32 ιBits))
        (multiReduction .maximumf [2] ⟨2, ![a, b]⟩ src ιBits hred hφ hacc)) hcast) hb

theorem kShift_apply (ιBits : BitVec FTy.f32.bits) (hacc : ιBits = FKind.maximumf.neutral .f32 hφ)
    (src : FVec Ideal ⟨3, ![a, b, c]⟩ .f32) (i : Fin a) (j : Fin b) (k : Fin c) :
    kShift hred hφ hcast hb ιBits hacc src (ix3 i j k) = shiftOf (fun q => src (ix3 i j q)) (Ideal.ofBits .f32 ιBits) := by
  unfold kShift shiftOf
  rw [broadcastTo_ab1_abc_apply, shapeCast_ab_ab1_apply, maximumf_apply, broadcast_apply, max_axis2_apply]
  rfl

/-- The kernel's normalisation: every entry over its row's sum. -/
def kNorm (zBits : BitVec FTy.f32.bits) (hacc : zBits = FKind.add.neutral .f32 hφ) (E : FVec Ideal ⟨3, ![a, b, c]⟩ .f32) :
    FVec Ideal ⟨3, ![a, b, c]⟩ .f32 :=
  divf E (broadcastTo ⟨3, ![a, b, c]⟩
    (shapeCast ⟨3, ![a, b, 1]⟩ (multiReduction .add [2] ⟨2, ![a, b]⟩ E zBits hred hφ hacc) hcast) hb)

theorem kNorm_apply (zBits : BitVec FTy.f32.bits) (hacc : zBits = FKind.add.neutral .f32 hφ)
    (E : FVec Ideal ⟨3, ![a, b, c]⟩ .f32) (i : Fin a) (j : Fin b) (k : Fin c) :
    kNorm hred hφ hcast hb zBits hacc E (ix3 i j k) = Ideal.div (E (ix3 i j k)) (∑ q : Fin c, E (ix3 i j q)) := by
  unfold kNorm
  rw [divf_apply, broadcastTo_ab1_abc_apply, shapeCast_ab_ab1_apply, add_axis2_apply]

end Kernel

/-! ## The host's spelling, on a rank-4 array -/

section Host

variable {A B C D : ℕ}

/-- The rank-0 shape of a host scalar. -/
abbrev S0 : Shape := ⟨0, ![]⟩

/-- A host scalar broadcast to [A, B, C] reads the scalar everywhere. -/
theorem scalar3_apply (hb0 : (S0).BroadcastsInDim ⟨3, ![A, B, C]⟩ ![]) (bits : BitVec 32) (i : Fin A) (j : Fin B) (k : Fin C) :
    broadcastInDim ⟨3, ![A, B, C]⟩ ![] hb0 (constant (F := Ideal) S0 .f32 bits) (ix3 i j k) = Ideal.ofBits .f32 bits :=
  (broadcastInDim_apply ![] hb0 (constant (F := Ideal) S0 .f32 bits) (ix3 i j k) (fun d => d.elim0) (fun d => d.elim0)).trans rfl

/-- [A, B, C] broadcast to [A, B, C, 1] reads, at (i, j, k, ·), the entry (i, j, k). -/
theorem keep4_apply (hb1 : (⟨3, ![A, B, C]⟩ : Shape).BroadcastsInDim ⟨4, ![A, B, C, 1]⟩ ![0, 1, 2])
    (x : (⟨3, ![A, B, C]⟩ : Shape).Idx → EReal) (i : Fin A) (j : Fin B) (k : Fin C) (u : Fin 1) :
    broadcastInDim ⟨4, ![A, B, C, 1]⟩ ![0, 1, 2] hb1 x (ix4 i j k u) = x (ix3 i j k) := by
  refine broadcastInDim_apply ![0, 1, 2] hb1 x (ix4 i j k u) (ix3 i j k) fun d => ?_
  match d with
  | ⟨0, _⟩ =>
    show i.val = if A = 1 then 0 else i.val
    split
    · have := i.isLt; omega
    · rfl
  | ⟨1, _⟩ =>
    show j.val = if B = 1 then 0 else j.val
    split
    · have := j.isLt; omega
    · rfl
  | ⟨2, _⟩ =>
    show k.val = if C = 1 then 0 else k.val
    split
    · have := k.isLt; omega
    · rfl

/-- [A, B, C, 1] broadcast to [A, B, C, D] reads, at (i, j, k, l), the entry (i, j, k, 0). -/
theorem spread4_apply (hb2 : (⟨4, ![A, B, C, 1]⟩ : Shape).BroadcastsInDim ⟨4, ![A, B, C, D]⟩ ![0, 1, 2, 3])
    (v : (⟨4, ![A, B, C, 1]⟩ : Shape).Idx → EReal) (i : Fin A) (j : Fin B) (k : Fin C) (l : Fin D) :
    broadcastInDim ⟨4, ![A, B, C, D]⟩ ![0, 1, 2, 3] hb2 v (ix4 i j k l) = v (ix4 i j k (0 : Fin 1)) := by
  refine broadcastInDim_apply ![0, 1, 2, 3] hb2 v (ix4 i j k l) (ix4 i j k (0 : Fin 1)) fun d => ?_
  match d with
  | ⟨0, _⟩ =>
    show i.val = if A = 1 then 0 else i.val
    split
    · have := i.isLt; omega
    · rfl
  | ⟨1, _⟩ =>
    show j.val = if B = 1 then 0 else j.val
    split
    · have := j.isLt; omega
    · rfl
  | ⟨2, _⟩ =>
    show k.val = if C = 1 then 0 else k.val
    split
    · have := k.isLt; omega
    · rfl
  | ⟨3, _⟩ => rfl

/-- The host's sum along the last axis from a zero scalar: at (i, j, k), the sum over l. -/
theorem rowSum4_apply (src : FVec Ideal ⟨4, ![A, B, C, D]⟩ .f32) (h' : (⟨4, ![A, B, C, D]⟩ : Shape).ReducesTo [3] ⟨3, ![A, B, C]⟩)
    (hred : (⟨4, ![A, B, C, D]⟩ : Shape).Reduces [3] ⟨3, ![A, B, C]⟩) (hu : 0 < (S0).numel) (i : Fin A) (j : Fin B) (k : Fin C) :
    Host.reduceAdd src (constant (F := Ideal) S0 .f32 0x00000000#32) h' hu (ix3 i j k) = ∑ l : Fin D, src (ix4 i j k l) := by
  show Ideal.hostReduceAdd _ _ _ (ix3 i j k) = _
  rw [Ideal.hostReduceAdd_single h' hred]
  show Ideal.ofBits .f32 0x00000000#32 + _ = _
  rw [Ideal.ofBits_zero_f32, zero_add]
  refine Finset.sum_congr rfl fun l _ => ?_
  exact congrArg src (funext fun d => Fin.ext (by match d with | ⟨0, _⟩ => rfl | ⟨1, _⟩ => rfl | ⟨2, _⟩ => rfl | ⟨3, _⟩ => rfl))

/-- The host's maximum along the last axis from an initial scalar: at (i, j, k), the fold of `max` over l. -/
theorem rowMax4_apply (src : FVec Ideal ⟨4, ![A, B, C, D]⟩ .f32) (h' : (⟨4, ![A, B, C, D]⟩ : Shape).ReducesTo [3] ⟨3, ![A, B, C]⟩)
    (hred : (⟨4, ![A, B, C, D]⟩ : Shape).Reduces [3] ⟨3, ![A, B, C]⟩) (hu : 0 < (S0).numel) (bits : BitVec 32)
    (i : Fin A) (j : Fin B) (k : Fin C) :
    Host.reduce (FloatOps.maximumf (F := Ideal) (φ := .f32)) src (constant (F := Ideal) S0 .f32 bits) h' hu (ix3 i j k)
      = (Finset.univ : Finset (Fin D)).fold max (Ideal.ofBits .f32 bits) (fun l => src (ix4 i j k l)) := by
  refine (Host.reduce_eq_fold_single (FloatOps.maximumf (F := Ideal) (φ := .f32)) src _ h' hred hu (ix3 i j k)).trans ?_
  refine Finset.fold_congr fun l _ => ?_
  exact congrArg src (funext fun d => Fin.ext (by match d with | ⟨0, _⟩ => rfl | ⟨1, _⟩ => rfl | ⟨2, _⟩ => rfl | ⟨3, _⟩ => rfl))

variable (h' : (⟨4, ![A, B, C, D]⟩ : Shape).ReducesTo [3] ⟨3, ![A, B, C]⟩) (hu : 0 < (S0).numel)
  (hb0 : (S0).BroadcastsInDim ⟨3, ![A, B, C]⟩ ![])
  (hb1 : (⟨3, ![A, B, C]⟩ : Shape).BroadcastsInDim ⟨4, ![A, B, C, 1]⟩ ![0, 1, 2])
  (hb2 : (⟨4, ![A, B, C, 1]⟩ : Shape).BroadcastsInDim ⟨4, ![A, B, C, D]⟩ ![0, 1, 2, 3])

/-- The host's array of shifts: each row's `max(ι, max-fold from ι)`, spread over the row. -/
def hShift (ιBits : BitVec 32) (src : FVec Ideal ⟨4, ![A, B, C, D]⟩ .f32) : FVec Ideal ⟨4, ![A, B, C, D]⟩ .f32 :=
  broadcastInDim ⟨4, ![A, B, C, D]⟩ ![0, 1, 2, 3] hb2
    (broadcastInDim ⟨4, ![A, B, C, 1]⟩ ![0, 1, 2] hb1
      (maximumf (broadcastInDim ⟨3, ![A, B, C]⟩ ![] hb0 (constant (F := Ideal) S0 .f32 ιBits))
        (Host.reduce (FloatOps.maximumf (F := Ideal) (φ := .f32)) src (constant (F := Ideal) S0 .f32 ιBits) h' hu)))

theorem hShift_apply (hred : (⟨4, ![A, B, C, D]⟩ : Shape).Reduces [3] ⟨3, ![A, B, C]⟩) (ιBits : BitVec 32)
    (src : FVec Ideal ⟨4, ![A, B, C, D]⟩ .f32) (i : Fin A) (j : Fin B) (k : Fin C) (l : Fin D) :
    hShift h' hu hb0 hb1 hb2 ιBits src (ix4 i j k l) = shiftOf (fun q => src (ix4 i j k q)) (Ideal.ofBits .f32 ιBits) := by
  unfold hShift shiftOf
  rw [spread4_apply, keep4_apply, maximumf_apply, scalar3_apply, rowMax4_apply src h' hred hu]

/-- The host's normalisation: every entry over its row's sum. -/
def hNorm (E : FVec Ideal ⟨4, ![A, B, C, D]⟩ .f32) : FVec Ideal ⟨4, ![A, B, C, D]⟩ .f32 :=
  Host.divf E (broadcastInDim ⟨4, ![A, B, C, D]⟩ ![0, 1, 2, 3] hb2
    (broadcastInDim ⟨4, ![A, B, C, 1]⟩ ![0, 1, 2] hb1
      (Host.reduceAdd E (constant (F := Ideal) S0 .f32 0x00000000#32) h' hu)))

theorem hNorm_apply (hred : (⟨4, ![A, B, C, D]⟩ : Shape).Reduces [3] ⟨3, ![A, B, C]⟩)
    (E : FVec Ideal ⟨4, ![A, B, C, D]⟩ .f32) (i : Fin A) (j : Fin B) (k : Fin C) (l : Fin D) :
    hNorm h' hu hb1 hb2 E (ix4 i j k l) = Ideal.div (E (ix4 i j k l)) (∑ q : Fin D, E (ix4 i j k q)) := by
  unfold hNorm
  show Ideal.div _ _ = _
  rw [spread4_apply, keep4_apply, rowSum4_apply E h' hred hu]

end Host

end Cert.Lib.SoftmaxLast

end
-- ==== Proof.AttnSpec.lean ====
/-
  The function both programs compute, read entry by entry on extended reals.

  Cross-attention of 4096 image positions over 77 text positions, 8 heads of width 160 inside a model width of 1280:
  queries are a linear image of the hidden states, keys and values linear images of the encoder states; within head h
  the score of position s against text position t is the dot product of the head's 160 query and key lanes, scaled by
  a fixed number; each row of 77 scores becomes softmax weights (shifted by the row's maximum); the weights mix the
  head's value lanes; the eight heads sit side by side in the 1280 columns, column d belonging to head d / 160 at lane
  d % 160; an output projection and a bias finish.  Every sum is a finite sum of extended reals and nothing is asked
  of the entries: the two programs differ in layout and in the order of summation only.
-/
import Idealize.ShloMosaic.PureOps.Ideal
import Idealize.ShloMosaic.Lib.ValueIdx
import proofs.«130863_j42743514530014_2_alg».proof.Proof.LibSoftmaxLast

noncomputable section

namespace Cert.Attn

open Idealize.ShloMosaic Idealize.ShloMosaic.ValueIdx Cert.Lib.SoftmaxLast

/-- The scale on the scores (the binary value nearest 160^(-1/2); the same word in both programs, never evaluated). -/
def scaleC : EReal := Ideal.ofBits .f32 0x3DA1E89B#32
/-- The adapter scale, the word of 1. -/
def oneC : EReal := Ideal.ofBits .f32 0x3F800000#32
/-- The initial value of the row maxima, the word of −∞. -/
def ninfC : EReal := Ideal.ofBits .f32 0xFF800000#32

/-- Column of lane j of head h. -/
def col (h : Fin 8) (j : Fin 160) : Fin 1280 := ⟨h.val * 160 + j.val, by have := h.isLt; have := j.isLt; omega⟩
/-- The head a column belongs to. -/
def headOf (d : Fin 1280) : Fin 8 := ⟨d.val / 160, by have := d.isLt; omega⟩
/-- The lane of a column inside its head. -/
def laneOf (d : Fin 1280) : Fin 160 := ⟨d.val % 160, Nat.mod_lt _ (by norm_num)⟩

theorem col_head_lane (d : Fin 1280) : col (headOf d) (laneOf d) = d :=
  Fin.ext (by show d.val / 160 * 160 + d.val % 160 = d.val; omega)

section
variable (x : (⟨3, ![16, 4096, 1280]⟩ : Shape).Idx → EReal) (e : (⟨3, ![16, 77, 768]⟩ : Shape).Idx → EReal)
  (wq : (⟨2, ![1280, 1280]⟩ : Shape).Idx → EReal) (wk wv : (⟨2, ![1280, 768]⟩ : Shape).Idx → EReal)
  (wo : (⟨2, ![1280, 1280]⟩ : Shape).Idx → EReal) (bo : (⟨1, ![1280]⟩ : Shape).Idx → EReal)

/-- The query projection: row (b, s) of the hidden states against row d of the weight. -/
def query (b : Fin 16) (s : Fin 4096) (d : Fin 1280) : EReal := ∑ c : Fin 1280, x (ix3 b s c) * wq (ix2 d c)

/-- A key or value projection: row (b, t) of the encoder states against row d of the weight w. -/
def encProj (w : (⟨2, ![1280, 768]⟩ : Shape).Idx → EReal) (b : Fin 16) (t : Fin 77) (d : Fin 1280) : EReal :=
  ∑ c : Fin 768, e (ix3 b t c) * w (ix2 d c)

/-- The scaled score of position s against text position t in head h. -/
def score (b : Fin 16) (h : Fin 8) (s : Fin 4096) (t : Fin 77) : EReal :=
  (∑ j : Fin 160, query x wq b s (col h j) * encProj e wk b t (col h j)) * scaleC

/-- The softmax weight of text position t for position s in head h. -/
def prob (b : Fin 16) (h : Fin 8) (s : Fin 4096) (t : Fin 77) : EReal :=
  weight (score x e wq wk b h s) (shiftOf (score x e wq wk b h s) ninfC) t

/-- Lane j of head h of the mixed values at position s, times the adapter scale. -/
def mixed (b : Fin 16) (s : Fin 4096) (h : Fin 8) (j : Fin 160) : EReal :=
  (∑ t : Fin 77, prob x e wq wk b h s t * encProj e wv b t (col h j)) * oneC

/-- The result array: the output projection of the eight heads side by side, plus the bias. -/
def attnOut : (⟨3, ![16, 4096, 1280]⟩ : Shape).Idx → EReal := fun i =>
  (∑ d : Fin 1280, mixed x e wq wk wv (i 0) (i 1) (headOf d) (laneOf d) * wo (ix2 (i 2) d)) + bo (ix1 (i 2))

theorem attnOut_apply (b : Fin 16) (s : Fin 4096) (o : Fin 1280) :
    attnOut x e wq wk wv wo bo (ix3 b s o)
      = (∑ d : Fin 1280, mixed x e wq wk wv b s (headOf d) (laneOf d) * wo (ix2 o d)) + bo (ix1 o) := rfl
end

/-- A row's max-fold from ι is at least ι, so taking the larger of ι and it changes nothing. -/
theorem shiftOf_eq_fold {c : ℕ} (x : Fin c → EReal) (ι : EReal) :
    shiftOf x ι = (Finset.univ : Finset (Fin c)).fold max ι x :=
  max_eq_right (Finset.le_fold_max ι |>.mpr (Or.inl le_rfl))

end Cert.Attn

end
-- ==== Proof.RefIsSpec.lean ====
/-
  The reference program computes the attention function of AttnSpec, entry by entry.

  The program is read one stage at a time at explicit coordinates (b, h, s, t, j, d): each projection is a sum over the
  contracted axis; splitting 1280 columns into 8 heads of 160 lanes and exchanging the head axis with the position axis
  reads column h * 160 + j; the scores are the lane sums times the scale; the softmax is the shifted exponential over its
  row sum; the mixing is a sum over the 77 text positions; merging the heads back reads head d / 160 at lane d % 160; the
  unit factor sits on the left, so commutativity of the product of extended reals moves it to the right; the last
  projection and the bias give the result.  No law beyond commutativity of the product is used.
-/
import proofs.«130863_j42743514530014_2_alg».proof.Proof.Gen.ReferenceIdeal.Read
import proofs.«130863_j42743514530014_2_alg».proof.Proof.AttnSpec

noncomputable section

namespace Cert.Attn.Ref

open Idealize.ShloMosaic Idealize.ShloMosaic.ValueIdx Cert.ReferenceIdeal Cert.ReferenceIdeal.Read Cert.Lib.SoftmaxLast

/-! ## The composed index functions at explicit coordinates -/

/-- Exchanging the head axis with the position axis, 4096 positions. -/
theorem swap_q (b : Fin 16) (h : Fin 8) (s : Fin 4096) (j : Fin 160) : idx_main_v4 (ix4 b h s j) = ix4 b s h j :=
  funext fun a => Fin.ext (by match a with | ⟨0, _⟩ => rfl | ⟨1, _⟩ => rfl | ⟨2, _⟩ => rfl | ⟨3, _⟩ => rfl)

/-- Lane j of head h of a row of 1280 columns is column h * 160 + j, 4096 positions. -/
theorem split_q (b : Fin 16) (s : Fin 4096) (h : Fin 8) (j : Fin 160) : idx_main_v3 (ix4 b s h j) = ix3 b s (col h j) :=
  funext fun a => Fin.ext (by
    have hb := b.isLt; have hs := s.isLt; have hh := h.isLt; have hj := j.isLt
    match a with
    | ⟨0, _⟩ => show (((b.val * 4096 + s.val) * 8 + h.val) * 160 + j.val) / 5242880 = b.val; omega
    | ⟨1, _⟩ => show (((b.val * 4096 + s.val) * 8 + h.val) * 160 + j.val) / 1280 % 4096 = s.val; omega
    | ⟨2, _⟩ => show (((b.val * 4096 + s.val) * 8 + h.val) * 160 + j.val) % 1280 = h.val * 160 + j.val; omega)

theorem lhs_q (b : Fin 16) (s : Fin 4096) (d k : Fin 1280) : lidx_main_v0 (ix3 b s d) k = ix3 b s k :=
  funext fun a => Fin.ext (by match a with | ⟨0, _⟩ => rfl | ⟨1, _⟩ => rfl | ⟨2, _⟩ => rfl)

theorem rhs_q (b : Fin 16) (s : Fin 4096) (d k : Fin 1280) : ridx_main_v0 (ix3 b s d) k = ix2 d k :=
  funext fun a => Fin.ext (by match a with | ⟨0, _⟩ => rfl | ⟨1, _⟩ => rfl)

/-- Exchanging the head axis with the position axis, 77 positions (keys). -/
theorem swap_k (b : Fin 16) (h : Fin 8) (t : Fin 77) (j : Fin 160) : idx_main_v6 (ix4 b h t j) = ix4 b t h j :=
  funext fun a => Fin.ext (by match a with | ⟨0, _⟩ => rfl | ⟨1, _⟩ => rfl | ⟨2, _⟩ => rfl | ⟨3, _⟩ => rfl)

/-- The same for the values. -/
theorem swap_v (b : Fin 16) (h : Fin 8) (t : Fin 77) (j : Fin 160) : idx_main_v8 (ix4 b h t j) = ix4 b t h j :=
  funext fun a => Fin.ext (by match a with | ⟨0, _⟩ => rfl | ⟨1, _⟩ => rfl | ⟨2, _⟩ => rfl | ⟨3, _⟩ => rfl)

/-- Lane j of head h of a row of 1280 columns is column h * 160 + j, 77 positions (keys). -/
theorem split_k (b : Fin 16) (t : Fin 77) (h : Fin 8) (j : Fin 160) : idx_main_v5 (ix4 b t h j) = ix3 b t (col h j) :=
  funext fun a => Fin.ext (by
    have hb := b.isLt; have ht := t.isLt; have hh := h.isLt; have hj := j.isLt
    match a with
    | ⟨0, _⟩ => show (((b.val * 77 + t.val) * 8 + h.val) * 160 + j.val) / 98560 = b.val; omega
    | ⟨1, _⟩ => show (((b.val * 77 + t.val) * 8 + h.val) * 160 + j.val) / 1280 % 77 = t.val; omega
    | ⟨2, _⟩ => show (((b.val * 77 + t.val) * 8 + h.val) * 160 + j.val) % 1280 = h.val * 160 + j.val; omega)

/-- The same for the values. -/
theorem split_v (b : Fin 16) (t : Fin 77) (h : Fin 8) (j : Fin 160) : idx_main_v7 (ix4 b t h j) = ix3 b t (col h j) :=
  funext fun a => Fin.ext (by
    have hb := b.isLt; have ht := t.isLt; have hh := h.isLt; have hj := j.isLt
    match a with
    | ⟨0, _⟩ => show (((b.val * 77 + t.val) * 8 + h.val) * 160 + j.val) / 98560 = b.val; omega
    | ⟨1, _⟩ => show (((b.val * 77 + t.val) * 8 + h.val) * 160 + j.val) / 1280 % 77 = t.val; omega
    | ⟨2, _⟩ => show (((b.val * 77 + t.val) * 8 + h.val) * 160 + j.val) % 1280 = h.val * 160 + j.val; omega)

theorem lhs_k (b : Fin 16) (t : Fin 77) (d : Fin 1280) (k : Fin 768) : lidx_main_v1 (ix3 b t d) k = ix3 b t k :=
  funext fun a => Fin.ext (by match a with | ⟨0, _⟩ => rfl | ⟨1, _⟩ => rfl | ⟨2, _⟩ => rfl)

theorem rhs_k (b : Fin 16) (t : Fin 77) (d : Fin 1280) (k : Fin 768) : ridx_main_v1 (ix3 b t d) k = ix2 d k :=
  funext fun a => Fin.ext (by match a with | ⟨0, _⟩ => rfl | ⟨1, _⟩ => rfl)

theorem lhs_v (b : Fin 16) (t : Fin 77) (d : Fin 1280) (k : Fin 768) : lidx_main_v2 (ix3 b t d) k = ix3 b t k :=
  funext fun a => Fin.ext (by match a with | ⟨0, _⟩ => rfl | ⟨1, _⟩ => rfl | ⟨2, _⟩ => rfl)

theorem rhs_v (b : Fin 16) (t : Fin 77) (d : Fin 1280) (k : Fin 768) : ridx_main_v2 (ix3 b t d) k = ix2 d k :=
  funext fun a => Fin.ext (by match a with | ⟨0, _⟩ => rfl | ⟨1, _⟩ => rfl)

/-- The lane sum of the scores reads the query at (b, h, s, ·). -/
theorem lhs_s (b : Fin 16) (h : Fin 8) (s : Fin 4096) (t : Fin 77) (k : Fin 160) : lidx_main_v9 (ix4 b h s t) k = ix4 b h s k :=
  funext fun a => Fin.ext (by match a with | ⟨0, _⟩ => rfl | ⟨1, _⟩ => rfl | ⟨2, _⟩ => rfl | ⟨3, _⟩ => rfl)

/-- ... and the key at (b, h, t, ·). -/
theorem rhs_s (b : Fin 16) (h : Fin 8) (s : Fin 4096) (t : Fin 77) (k : Fin 160) : ridx_main_v9 (ix4 b h s t) k = ix4 b h t k :=
  funext fun a => Fin.ext (by match a with | ⟨0, _⟩ => rfl | ⟨1, _⟩ => rfl | ⟨2, _⟩ => rfl | ⟨3, _⟩ => rfl)

/-- The mixing sum reads the weights at (b, h, s, ·). -/
theorem lhs_m (b : Fin 16) (h : Fin 8) (s : Fin 4096) (j : Fin 160) (k : Fin 77) : lidx_main_v23 (ix4 b h s j) k = ix4 b h s k :=
  funext fun a => Fin.ext (by match a with | ⟨0, _⟩ => rfl | ⟨1, _⟩ => rfl | ⟨2, _⟩ => rfl | ⟨3, _⟩ => rfl)

/-- ... and the values at (b, h, ·, j). -/
theorem rhs_m (b : Fin 16) (h : Fin 8) (s : Fin 4096) (j : Fin 160) (k : Fin 77) : ridx_main_v23 (ix4 b h s j) k = ix4 b h k j :=
  funext fun a => Fin.ext (by match a with | ⟨0, _⟩ => rfl | ⟨1, _⟩ => rfl | ⟨2, _⟩ => rfl | ⟨3, _⟩ => rfl)

/-- Exchanging the position axis back with the head axis. -/
theorem swap_o (b : Fin 16) (s : Fin 4096) (h : Fin 8) (j : Fin 160) : idx_main_v24 (ix4 b s h j) = ix4 b h s j :=
  funext fun a => Fin.ext (by match a with | ⟨0, _⟩ => rfl | ⟨1, _⟩ => rfl | ⟨2, _⟩ => rfl | ⟨3, _⟩ => rfl)

/-- Column d of the merged heads is lane d % 160 of head d / 160. -/
theorem merge_o (b : Fin 16) (s : Fin 4096) (d : Fin 1280) : idx_main_v25 (ix3 b s d) = ix4 b s (headOf d) (laneOf d) :=
  funext fun a => Fin.ext (by
    have hb := b.isLt; have hs := s.isLt; have hd := d.isLt
    match a with
    | ⟨0, _⟩ => show ((b.val * 4096 + s.val) * 1280 + d.val) / 5242880 = b.val; omega
    | ⟨1, _⟩ => show ((b.val * 4096 + s.val) * 1280 + d.val) / 1280 % 4096 = s.val; omega
    | ⟨2, _⟩ => show ((b.val * 4096 + s.val) * 1280 + d.val) / 160 % 8 = d.val / 160; omega
    | ⟨3, _⟩ => show ((b.val * 4096 + s.val) * 1280 + d.val) % 160 = d.val % 160; omega)

theorem lhs_o (b : Fin 16) (s : Fin 4096) (o k : Fin 1280) : lidx_main_v28 (ix3 b s o) k = ix3 b s k :=
  funext fun a => Fin.ext (by match a with | ⟨0, _⟩ => rfl | ⟨1, _⟩ => rfl | ⟨2, _⟩ => rfl)

theorem rhs_o (b : Fin 16) (s : Fin 4096) (o k : Fin 1280) : ridx_main_v28 (ix3 b s o) k = ix2 o k :=
  funext fun a => Fin.ext (by match a with | ⟨0, _⟩ => rfl | ⟨1, _⟩ => rfl)

/-- The bias spread over batch and position reads entry o. -/
theorem bias_o (b : Fin 16) (s : Fin 4096) (o : Fin 1280) : idx_main_v29 (idx_main_v30 (ix3 b s o)) = ix1 o :=
  funext fun a => Fin.ext (by match a with | ⟨0, _⟩ => rfl)

section
variable (x0 : (⟨S16x4096x1280, .f32⟩ : BufTy).Contents (Elt Ideal)) (x1 : (⟨S16x77x768, .f32⟩ : BufTy).Contents (Elt Ideal))
  (x2 : (⟨S1280x1280, .f32⟩ : BufTy).Contents (Elt Ideal)) (x3 x4 : (⟨S1280x768, .f32⟩ : BufTy).Contents (Elt Ideal))
  (x5 : (⟨S1280x1280, .f32⟩ : BufTy).Contents (Elt Ideal)) (x6 : (⟨S1280, .f32⟩ : BufTy).Contents (Elt Ideal))

/-- The queries, split into heads. -/
theorem queries_at (b : Fin 16) (h : Fin 8) (s : Fin 4096) (j : Fin 160) :
    val_main_v4 (F := Ideal) x0 x2 (ix4 b h s j) = query x0 x2 b s (col h j) := by
  rw [val_main_v4_apply, swap_q, val_main_v3_apply, split_q, val_main_v0_apply]
  exact Finset.sum_congr rfl fun k _ => by rw [lhs_q, rhs_q]

/-- The keys, split into heads. -/
theorem keys_at (b : Fin 16) (h : Fin 8) (t : Fin 77) (j : Fin 160) :
    val_main_v6 (F := Ideal) x1 x3 (ix4 b h t j) = encProj x1 x3 b t (col h j) := by
  rw [val_main_v6_apply, swap_k, val_main_v5_apply, split_k, val_main_v1_apply]
  exact Finset.sum_congr rfl fun k _ => by rw [lhs_k, rhs_k]

/-- The values, split into heads. -/
theorem values_at (b : Fin 16) (h : Fin 8) (t : Fin 77) (j : Fin 160) :
    val_main_v8 (F := Ideal) x1 x4 (ix4 b h t j) = encProj x1 x4 b t (col h j) := by
  rw [val_main_v8_apply, swap_v, val_main_v7_apply, split_v, val_main_v2_apply]
  exact Finset.sum_congr rfl fun k _ => by rw [lhs_v, rhs_v]

/-- The scaled scores. -/
theorem scores_at (b : Fin 16) (h : Fin 8) (s : Fin 4096) (t : Fin 77) :
    val_main_v11 (F := Ideal) x0 x1 x2 x3 (ix4 b h s t) = score x0 x1 x2 x3 b h s t := by
  rw [val_main_v11_apply, val_main_v9_apply, val_main_v10_apply, val_main_cst_apply, Ideal.mulf_def, Ideal.ofBits_def]
  unfold score scaleC
  refine congrArg (· * _) (Finset.sum_congr rfl fun k _ => ?_)
  rw [lhs_s, rhs_s, queries_at, keys_at]

/-! ## The softmax over the 77 text positions -/

/-- The array of shifts is the row maximum from −∞, the larger of −∞ and it, spread over the row. -/
theorem shift_eq :
    val_main_v16 (F := Ideal) x0 x1 x2 x3
      = hShift Facts₀.reducesTo_S16x8x4096x77_S16x8x4096_d3 Facts₀.h_S_ Facts₀.bcast_S_S16x8x4096
          Facts₀.bcast_S16x8x4096_S16x8x4096x1_0_1_2 Facts₀.bcast_S16x8x4096x1_S16x8x4096x77_0_1_2_3 0xFF800000#32
          (val_main_v11 (F := Ideal) x0 x1 x2 x3) := rfl

theorem shift_at (b : Fin 16) (h : Fin 8) (s : Fin 4096) (t : Fin 77) :
    val_main_v16 (F := Ideal) x0 x1 x2 x3 (ix4 b h s t) = shiftOf (score x0 x1 x2 x3 b h s) ninfC := by
  rw [shift_eq, hShift_apply _ _ _ _ _ (by decide)]
  have e : (fun q => val_main_v11 (F := Ideal) x0 x1 x2 x3 (ix4 b h s q)) = score x0 x1 x2 x3 b h s :=
    funext fun q => scores_at x0 x1 x2 x3 b h s q
  rw [e]
  rfl

/-- The exponentials of the shifted scores. -/
theorem exps_at (b : Fin 16) (h : Fin 8) (s : Fin 4096) (t : Fin 77) :
    val_main_v18 (F := Ideal) x0 x1 x2 x3 (ix4 b h s t)
      = Ideal.exp (score x0 x1 x2 x3 b h s t - shiftOf (score x0 x1 x2 x3 b h s) ninfC) := by
  rw [val_main_v18_apply, val_main_v17_apply, Ideal.hostUnary_exp_def, Ideal.subf_def, scores_at, shift_at]

/-- The weights are the exponentials over their row sums from zero, spread over the row. -/
theorem norm_eq :
    val_main_v22 (F := Ideal) x0 x1 x2 x3
      = hNorm Facts₀.reducesTo_S16x8x4096x77_S16x8x4096_d3 Facts₀.h_S_
          Facts₀.bcast_S16x8x4096_S16x8x4096x1_0_1_2 Facts₀.bcast_S16x8x4096x1_S16x8x4096x77_0_1_2_3
          (val_main_v18 (F := Ideal) x0 x1 x2 x3) := rfl

theorem probs_at (b : Fin 16) (h : Fin 8) (s : Fin 4096) (t : Fin 77) :
    val_main_v22 (F := Ideal) x0 x1 x2 x3 (ix4 b h s t) = prob x0 x1 x2 x3 b h s t := by
  rw [norm_eq, hNorm_apply _ _ _ _ (by decide)]
  unfold prob weight
  simp only [exps_at]

/-! ## Mixing the values, merging the heads, the last projection -/

theorem mix_at (b : Fin 16) (h : Fin 8) (s : Fin 4096) (j : Fin 160) :
    val_main_v23 (F := Ideal) x0 x1 x2 x3 x4 (ix4 b h s j)
      = ∑ t : Fin 77, prob x0 x1 x2 x3 b h s t * encProj x1 x4 b t (col h j) := by
  rw [val_main_v23_apply]
  exact Finset.sum_congr rfl fun k _ => by rw [lhs_m, rhs_m, probs_at, values_at]

/-- The merged heads under the unit factor: the factor is on the left in the program and on the right in the function. -/
theorem merged_at (b : Fin 16) (s : Fin 4096) (d : Fin 1280) :
    val_main_v27 (F := Ideal) x0 x1 x2 x3 x4 (ix3 b s d) = mixed x0 x1 x2 x3 x4 b s (headOf d) (laneOf d) := by
  rw [val_main_v27_apply, val_main_v26_apply, val_main_cst_3_apply, Ideal.mulf_def, Ideal.ofBits_def,
    val_main_v25_apply, merge_o, val_main_v24_apply, swap_o, mix_at]
  exact mul_comm _ _

end

/-- The reference program is the attention function. -/
theorem ref_is_spec
    (x0 : (⟨S16x4096x1280, .f32⟩ : BufTy).Contents (Elt Ideal)) (x1 : (⟨S16x77x768, .f32⟩ : BufTy).Contents (Elt Ideal))
    (x2 : (⟨S1280x1280, .f32⟩ : BufTy).Contents (Elt Ideal)) (x3 x4 : (⟨S1280x768, .f32⟩ : BufTy).Contents (Elt Ideal))
    (x5 : (⟨S1280x1280, .f32⟩ : BufTy).Contents (Elt Ideal)) (x6 : (⟨S1280, .f32⟩ : BufTy).Contents (Elt Ideal)) :
    Cert.ReferenceIdeal.Read.val_main_v31 (F := Ideal) x0 x1 x2 x3 x4 x5 x6 = Cert.Attn.attnOut x0 x1 x2 x3 x4 x5 x6 := by
  funext i
  obtain ⟨b, s, o, rfl⟩ : ∃ (b : Fin 16) (s : Fin 4096) (o : Fin 1280), i = ix3 b s o := ⟨i 0, i 1, i 2, eq_ix3 i⟩
  rw [attnOut_apply, val_main_v31_apply, Ideal.addf_def, val_main_v28_apply, val_main_v30_apply, val_main_v29_apply, bias_o]
  refine congrArg (· + _) (Finset.sum_congr rfl fun k _ => ?_)
  rw [lhs_o, rhs_o, merged_at]

end Cert.Attn.Ref

end
-- ==== Proof.KernRun.lean ====
/-
  The idealized kernel program, run: every weakly fair execution ends, nothing faulting, with the result array holding
  what the third region's write-backs leave in it and the seven argument arrays as launched.  The program is three
  regions among two stretches of host operations; the contents of every buffer at each boundary are a fold from the
  launch memory, and the last boundary's contents are read against the final state.
-/
import proofs.«130863_j42743514530014_2_alg».proof.Proof.Gen.KernelIdeal.Frame

set_option maxRecDepth 16384

noncomputable section

namespace Cert.Attn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named: at the end it holds the last boundary's contents, and those of the
    arguments are the launch contents. -/
theorem run_out : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Attn.Run

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernHead.lean ====
/-
  One attention head inside a tile of 512 positions, read at an entry.

  Given the head's 160 query lanes q (512 rows), its key lanes k and value lanes v (77 text positions each), the head's
  arithmetic is: scores q·kᵀ scaled by a fixed number; per row the maximum (a max-fold from −∞), the exponentials of the
  differences, their sum, the quotients; the quotients times v; the adapter scale.  Read at row r and lane j this is the
  softmax-weighted sum over the 77 text positions of v's lane j.  The row maximum as the kernel takes it (the fold alone)
  equals the larger of −∞ and the fold, which is how the specification spells the shift.
-/
import proofs.«130863_j42743514530014_2_alg».proof.Proof.Gen.KernelIdeal.Skeleton
import proofs.«130863_j42743514530014_2_alg».proof.Proof.AttnSpec
import proofs.«130863_j42743514530014_2_alg».proof.Proof.LibMatmulSum
import proofs.«130863_j42743514530014_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Attn.Head

open Cert.KernelIdeal Cert.KernelIdeal.Gen
open Idealize.ShloMosaic Idealize.ShloMosaic.ValueIdx Cert.Lib.SoftmaxLast Cert.LibKeepdims Cert.GraphConv

/-- The maximum along the rows of a matrix: at p, the max-fold over the columns q of the entry (p, q). -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  refine Finset.fold_congr fun q _ => ?_
  exact congrArg src (funext fun d => Fin.ext (by match d with | ⟨0, _⟩ => rfl | ⟨1, _⟩ => rfl))

/-! ## The coordinate facts of the two products' dimension records -/

section Dots
local notation "Dqk" => dot_S512x160_S160x77_S512x77_1_0_0_1_n_n
local notation "Dpv" => dot_S512x77_S77x160_S512x160_1_0_0_1_n_n

theorem qk_l0 (i : S512x77.Idx) (q : (Dqk).contr.Idx) : ((Dqk).lhsIdx i q 0).val = (i 0).val := by
  unfold DotDims.lhsIdx
  rw [dif_neg (show ¬(0 : Fin S512x160.rank) ∈ (Dqk).lhsBatch by decide), dif_pos (show (0 : Fin S512x160.rank) ∈ (Dqk).lhsNonContracting by decide)]
  rfl
theorem qk_l1 (i : S512x77.Idx) (q : (Dqk).contr.Idx) : ((Dqk).lhsIdx i q 1).val = (q ⟨0, by decide⟩).val :=
  (Dqk).lhsIdx_val_of_single rfl i q
theorem qk_r0 (i : S512x77.Idx) (q : (Dqk).contr.Idx) : ((Dqk).rhsIdx i q 0).val = (q ⟨0, by decide⟩).val :=
  (Dqk).rhsIdx_val_of_single rfl i q
theorem qk_r1 (i : S512x77.Idx) (q : (Dqk).contr.Idx) : ((Dqk).rhsIdx i q 1).val = (i 1).val := by
  unfold DotDims.rhsIdx
  rw [dif_neg (show ¬(1 : Fin S160x77.rank) ∈ (Dqk).rhsBatch by decide), dif_pos (show (1 : Fin S160x77.rank) ∈ (Dqk).rhsNonContracting by decide)]
  rfl

theorem pv_l0 (i : S512x160.Idx) (q : (Dpv).contr.Idx) : ((Dpv).lhsIdx i q 0).val = (i 0).val := by
  unfold DotDims.lhsIdx
  rw [dif_neg (show ¬(0 : Fin S512x77.rank) ∈ (Dpv).lhsBatch by decide), dif_pos (show (0 : Fin S512x77.rank) ∈ (Dpv).lhsNonContracting by decide)]
  rfl
theorem pv_l1 (i : S512x160.Idx) (q : (Dpv).contr.Idx) : ((Dpv).lhsIdx i q 1).val = (q ⟨0, by decide⟩).val :=
  (Dpv).lhsIdx_val_of_single rfl i q
theorem pv_r0 (i : S512x160.Idx) (q : (Dpv).contr.Idx) : ((Dpv).rhsIdx i q 0).val = (q ⟨0, by decide⟩).val :=
  (Dpv).rhsIdx_val_of_single rfl i q
theorem pv_r1 (i : S512x160.Idx) (q : (Dpv).contr.Idx) : ((Dpv).rhsIdx i q 1).val = (i 1).val := by
  unfold DotDims.rhsIdx
  rw [dif_neg (show ¬(1 : Fin S77x160.rank) ∈ (Dpv).rhsBatch by decide), dif_pos (show (1 : Fin S77x160.rank) ∈ (Dpv).rhsNonContracting by decide)]
  rfl
end Dots

/-! ## The head -/

/-- Row r's scaled scores against the 77 text positions. -/
def rowScore (q : FVec Ideal S512x160 .bf16) (k : FVec Ideal S77x160 .bf16) (r : Fin 512) (t : Fin 77) : EReal :=
  (∑ l : Fin 160, q (ix2 r l) * k (ix2 t l)) * scaleC

/-- The scaled score matrix read at (r, t). -/
theorem scores_apply (q : FVec Ideal S512x160 .bf16) (k : FVec Ideal S77x160 .bf16) (r : Fin 512) (t : Fin 77) :
    mulf (matmul (F := Ideal) dot_S512x160_S160x77_S512x77_1_0_0_1_n_n none q
        (transpose S160x77 [1, 0] k transposes_S77x160_p1_0_S160x77) (constant S512x77 .f32 0x00000000#32))
      (broadcast S512x77 (Scalar.ofBits (F := Ideal) .f32 0x3DA1E89B#32)) (ix2 r t) = rowScore q k r t := by
  rw [mulf_apply, broadcast_apply]
  refine congrArg (· * _) ?_
  refine (matmul_zero_sum dot_S512x160_S160x77_S512x77_1_0_0_1_n_n none rfl rfl qk_l0 qk_l1 qk_r0 qk_r1 q _ (ix2 r t)).trans ?_
  refine Finset.sum_congr rfl fun l _ => ?_
  exact congrArg (q (ix2 r l) * ·) (transpose_ix2_apply k transposes_S77x160_p1_0_S160x77 l t)

/-- The scaled scores of a tile, as the kernel spells them. -/
def sc (q : FVec Ideal S512x160 .bf16) (k : FVec Ideal S77x160 .bf16) : FVec Ideal S512x77 .f32 :=
  mulf (matmul (F := Ideal) dot_S512x160_S160x77_S512x77_1_0_0_1_n_n none q
      (transpose S160x77 [1, 0] k transposes_S77x160_p1_0_S160x77) (constant S512x77 .f32 0x00000000#32))
    (broadcast S512x77 (Scalar.ofBits (F := Ideal) .f32 0x3DA1E89B#32))

/-- The exponentials of the scores less their row's maximum. -/
def ex (q : FVec Ideal S512x160 .bf16) (k : FVec Ideal S77x160 .bf16) : FVec Ideal S512x77 .f32 :=
  exp (subf (sc q k) (broadcastTo S512x77 (shapeCast S512x1
    (multiReduction .maximumf [1] S512 (sc q k) 0xFF800000#32 reduces_S512x77_S512 (.inl rfl) rfl) shapeCasts_S512_S512x1)
    broadcasts_S512x1_S512x77))

/-- The softmax quotients. -/
def pr (q : FVec Ideal S512x160 .bf16) (k : FVec Ideal S77x160 .bf16) : FVec Ideal S512x77 .f32 :=
  divf (ex q k) (broadcastTo S512x77 (shapeCast S512x1
    (multiReduction .add [1] S512 (ex q k) 0x00000000#32 reduces_S512x77_S512 (.inl rfl) rfl) shapeCasts_S512_S512x1)
    broadcasts_S512x1_S512x77)

/-- The head's payload is the quotients times the value lanes, times the adapter scale. -/
theorem pay9_eq (q : FVec Ideal S512x160 .bf16) (k v : FVec Ideal S77x160 .bf16) :
    k2_pay9 (F := Ideal) q k v
      = shapeCast S512x160 (mulf (matmul (F := Ideal) dot_S512x77_S77x160_S512x160_1_0_0_1_n_n none
          (truncf .bf16 (pr q k) bitsLt_bf16_f32) v (constant S512x160 .f32 0x00000000#32))
          (broadcast S512x160 (Scalar.ofBits (F := Ideal) .f32 0x3F800000#32))) shapeCasts_S512x160_S512x160 := rfl

theorem sc_apply (q : FVec Ideal S512x160 .bf16) (k : FVec Ideal S77x160 .bf16) (r : Fin 512) (t : Fin 77) :
    sc q k (ix2 r t) = rowScore q k r t := scores_apply q k r t

/-- The row maximum, cast to a column and spread over the row, read at (r, t): the specification's shift. -/
theorem shift_apply (x : FVec Ideal S512x77 .f32) (r : Fin 512) (t : Fin 77) :
    broadcastTo S512x77 (shapeCast S512x1
      (multiReduction .maximumf [1] S512 x 0xFF800000#32 reduces_S512x77_S512 (.inl rfl) rfl) shapeCasts_S512_S512x1)
      broadcasts_S512x1_S512x77 (ix2 r t) = shiftOf (fun t' => x (ix2 r t')) ninfC :=
  (broadcastTo_a1_ab_apply _ _ r t).trans <|
    (shapeCast_a_a1_apply _ _ r 0).trans <|
      (max_axis1_apply x 0xFF800000#32 reduces_S512x77_S512 (.inl rfl) rfl r).trans (shiftOf_eq_fold _ _).symm

/-- The row sum, cast to a column and spread over the row, read at (r, t). -/
theorem rowsum_apply (x : FVec Ideal S512x77 .f32) (r : Fin 512) (t : Fin 77) :
    broadcastTo S512x77 (shapeCast S512x1
      (multiReduction .add [1] S512 x 0x00000000#32 reduces_S512x77_S512 (.inl rfl) rfl) shapeCasts_S512_S512x1)
      broadcasts_S512x1_S512x77 (ix2 r t) = ∑ t' : Fin 77, x (ix2 r t') :=
  (broadcastTo_a1_ab_apply _ _ r t).trans <|
    (shapeCast_a_a1_apply _ _ r 0).trans (add_axis1_apply x 0x00000000#32 reduces_S512x77_S512 (.inl rfl) rfl r)

theorem ex_apply (q : FVec Ideal S512x160 .bf16) (k : FVec Ideal S77x160 .bf16) (r : Fin 512) (t : Fin 77) :
    ex q k (ix2 r t) = Ideal.exp (rowScore q k r t - shiftOf (rowScore q k r) ninfC) := by
  have e1 : (fun t' => sc q k (ix2 r t')) = rowScore q k r := funext fun t' => sc_apply q k r t'
  have h := shift_apply (sc q k) r t
  rw [e1] at h
  show Ideal.exp (sc q k (ix2 r t) - _) = _
  exact congrArg Ideal.exp (congrArg₂ (· - ·) (sc_apply q k r t) h)

theorem pr_apply (q : FVec Ideal S512x160 .bf16) (k : FVec Ideal S77x160 .bf16) (r : Fin 512) (t : Fin 77) :
    pr q k (ix2 r t) = weight (rowScore q k r) (shiftOf (rowScore q k r) ninfC) t := by
  have h := rowsum_apply (ex q k) r t
  have e1 : (∑ t' : Fin 77, ex q k (ix2 r t')) = ∑ t' : Fin 77, Ideal.exp (rowScore q k r t' - shiftOf (rowScore q k r) ninfC) :=
    Finset.sum_congr rfl fun t' _ => ex_apply q k r t'
  show Ideal.div (ex q k (ix2 r t)) _ = _
  unfold weight
  exact congrArg₂ Ideal.div (ex_apply q k r t) (h.trans e1)

/-- The head at row r, lane j: the weighted sum of the value lane over the text positions, times the adapter scale. -/
theorem head_apply (q : FVec Ideal S512x160 .bf16) (k v : FVec Ideal S77x160 .bf16) (r : Fin 512) (j : Fin 160) :
    k2_pay9 (F := Ideal) q k v (ix2 r j)
      = (∑ t : Fin 77, weight (rowScore q k r) (shiftOf (rowScore q k r) ninfC) t * v (ix2 t j)) * oneC := by
  rw [pay9_eq, shapeCast_self, mulf_apply, broadcast_apply]
  refine congrArg (· * _) ?_
  refine (matmul_zero_sum dot_S512x77_S77x160_S512x160_1_0_0_1_n_n none rfl rfl pv_l0 pv_l1 pv_r0 pv_r1 _ v (ix2 r j)).trans ?_
  refine Finset.sum_congr rfl fun t _ => ?_
  exact congrArg (· * v (ix2 t j)) (pr_apply q k r t)

end Cert.Attn.Head

end
-- ==== Proof.KernBody.lean ====
/-
  One grid point of the fused region, read at an entry of its output block.

  The body projects a tile of 512 hidden-state rows to queries Q (512 × 1280), takes the batch's keys K and values V
  (77 × 1280 each), and for each of the eight heads writes the head's 512 × 160 result into columns 160·h … 160·h+159 of a
  scratch matrix; the scratch is then read back whole, projected by the output weight and shifted by the bias.  The eight
  column pieces are the blocks of ONE function of the scratch index — at (r, d) the head d / 160 evaluated at lane d % 160 —
  so the scratch read back is that function, and the block's entry (r, e) is the sum over d of it against the output
  weight's column e, plus the bias at e.
-/
import proofs.«130863_j42743514530014_2_alg».proof.Proof.Gen.KernelIdeal.Frame
import proofs.«130863_j42743514530014_2_alg».proof.Proof.KernHead
import Idealize.ShloMosaic.Lib.Pipeline.Value
import Idealize.ShloMosaic.Lib.Pipeline.FrameBody
import Idealize.ShloMosaic.Lib.ValueLayout

set_option maxRecDepth 16384

noncomputable section

namespace Cert.Attn.Body

open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.SoftmaxLast Cert.LibKeepdims Cert.GraphConv Cert.Attn.Head

theorem hz3 : (![0, 0, 0] : Fin 3 → Nat) = fun _ => 0 := funext fun a => by fin_cases a <;> rfl
theorem hz2 : (![0, 0] : Fin 2 → Nat) = fun _ => 0 := funext fun a => by fin_cases a <;> rfl

/-- Through the whole-shape rectangle at zero offsets an index is itself. -/
theorem idx_unit_zero {S : Shape} {off : Fin S.rank → Nat} (h : off = fun _ => 0) (inb : ∀ a, off a + S.size a ≤ S.size a)
    (j : S.Idx) : (Rect.unit off S.size inb).idx j = j := by
  subst h; show (Rect.whole S).emb j = j; rw [Rect.emb_whole_apply]

section Pieces
variable {F : FTy → Type} [FloatOps F]

/-- The eight column pieces the body leaves in the scratch matrix, last store first. -/
def scratchL (x0 : Vec F S1x512x1280 .f32) (x1 : Vec F S1280x1280 .bf16) (x2 x3 : Vec F S1x77x1280 .bf16) :
    List (View.Piece (Elt F) S512x1280 .f32) :=
  [⟨Rect.unit ![0, 1120] ![512, 160] inb_S512x1280_S512x160_0_1120, k2_pay17 (k2_pay2 x0 x1) (k2_pay3 x2) (k2_pay4 x3)⟩,
   ⟨Rect.unit ![0, 960] ![512, 160] inb_S512x1280_S512x160_0_960, k2_pay16 (k2_pay15 (k2_pay2 x0 x1) (k2_pay3 x2) (k2_pay4 x3))⟩,
   ⟨Rect.unit ![0, 800] ![512, 160] inb_S512x1280_S512x160_0_800, k2_pay14 (k2_pay2 x0 x1) (k2_pay3 x2) (k2_pay4 x3)⟩,
   ⟨Rect.unit ![0, 640] ![512, 160] inb_S512x1280_S512x160_0_640, k2_pay13 (k2_pay12 (k2_pay2 x0 x1) (k2_pay3 x2) (k2_pay4 x3))⟩,
   ⟨Rect.unit ![0, 480] ![512, 160] inb_S512x1280_S512x160_0_480, k2_pay11 (k2_pay2 x0 x1) (k2_pay3 x2) (k2_pay4 x3)⟩,
   ⟨Rect.unit ![0, 320] ![512, 160] inb_S512x1280_S512x160_0_320, k2_pay10 (k2_pay2 x0 x1) (k2_pay3 x2) (k2_pay4 x3)⟩,
   ⟨Rect.unit ![0, 160] ![512, 160] inb_S512x1280_S512x160_0_160, k2_pay9 (k2_pay6 x0 x1) (k2_pay7 x2) (k2_pay8 x3)⟩,
   ⟨Rect.unit ![0, 0] ![512, 160] inb_S512x1280_S512x160_0_0, k2_pay5 x0 x1 x2 x3⟩]

/-- The scratch matrix as the body reads it back, whole, after the eight column stores. -/
def scratchRead (x0 : Vec F S1x512x1280 .f32) (x1 : Vec F S1280x1280 .bf16) (x2 x3 : Vec F S1x77x1280 .bf16) :
    Vec F S512x1280 .f32 :=
  fun j : S512x1280.Idx => View.canon (scratchL x0 x1 x2 x3)
    ((Rect.unit (s := S512x1280) ![0, 0] ![512, 1280] inb_S512x1280_S512x1280_0_0).idx j)

/-- What the body leaves in the output block: the output projection of the scratch matrix read back after the eight
    column stores, recast to the block's shape. -/
theorem out_block_eq (c : Dev nD) (i : grid2.Coords) (arg2 : Memref sig .tc .vmem S1x512x1280 .f32) (harg2 : arg2.IsWhole) (arg3 : Memref sig .tc .vmem S1280x1280 .bf16) (harg3 : arg3.IsWhole) (arg4 : Memref sig .tc .vmem S1x77x1280 .bf16) (harg4 : arg4.IsWhole) (arg5 : Memref sig .tc .vmem S1x77x1280 .bf16) (harg5 : arg5.IsWhole) (arg6 : Memref sig .tc .vmem S1280x1280 .bf16) (harg6 : arg6.IsWhole) (arg7 : Memref sig .tc .vmem S1x1280 .f32) (harg7 : arg7.IsWhole) (arg8 : Memref sig .tc .vmem S1x512x1280 .f32) (harg8 : arg8.IsWhole) (arg9 : Memref sig .tc .vmem S512x1280 .f32) (harg9 : arg9.IsWhole)
    (x0 : Vec F S1x512x1280 .f32) (x1 : Vec F S1280x1280 .bf16) (x2 : Vec F S1x77x1280 .bf16) (x3 : Vec F S1x77x1280 .bf16) (x4 : Vec F S1280x1280 .bf16) (x5 : Vec F S1x1280 .f32) :
    out2_A_6 c i arg2 harg2 arg3 harg3 arg4 harg4 arg5 harg5 arg6 harg6 arg7 harg7 arg8 harg8 arg9 harg9 x0 x1 x2 x3 x4 x5
      = k2_pay1 (k2_pay18 (scratchRead x0 x1 x2 x3) x4 x5) := by
  unfold scratchRead scratchL
  unfold out2_A_6
  rw [View.read_writes_junk_eq_canon]
  unfold kernelRun2_A
  dsimp only
  rw [View.canon_unit_zero hz3]
  sl_unfold_run_names
  simp only [View.readAt_eq_ld, harg2.read_unread, harg3.read_unread, harg4.read_unread, harg5.read_unread, harg6.read_unread, harg7.read_unread, View.ld_unit_zero (S := S1x512x1280) hz3, View.ld_unit_zero (S := S1280x1280) hz2, View.ld_unit_zero (S := S1x77x1280) hz3, View.ld_unit_zero (S := S1x1280) hz2]
  rw [View.readCov_eq_canon']
  rfl

end Pieces

/-! ## The scratch matrix as one function of its index -/

/-- Row r's scaled scores in head h against the text positions, from the full-width queries and keys. -/
def tsc (Q : FVec Ideal S512x1280 .bf16) (K : FVec Ideal S77x1280 .bf16) (r : Fin 512) (h : Fin 8) (t : Fin 77) : EReal :=
  (∑ l : Fin 160, Q (ix2 r (col h l)) * K (ix2 t (col h l))) * scaleC

/-- Head h at row r, read at column d of the value matrix. -/
def tileH (Q : FVec Ideal S512x1280 .bf16) (K V : FVec Ideal S77x1280 .bf16) (r : Fin 512) (h : Fin 8) (d : Fin 1280) : EReal :=
  (∑ t : Fin 77, weight (tsc Q K r h) (shiftOf (tsc Q K r h) ninfC) t * V (ix2 t d)) * oneC

/-- The scratch matrix: at (r, d), head d / 160 read at column d. -/
def merged (Q : FVec Ideal S512x1280 .bf16) (K V : FVec Ideal S77x1280 .bf16) : S512x1280.Idx → EReal :=
  fun y => tileH Q K V (y 0) (headOf (y 1)) (y 1)

/-- One head on the column slice at offset o = 160·h of the full-width queries, keys and values. -/
theorem head_slice (Q : FVec Ideal S512x1280 .bf16) (K V : FVec Ideal S77x1280 .bf16) (o : Nat) (h : Fin 8) (ho : o = h.val * 160)
    (hq : S512x1280.Slices ![0, o] S512x160) (hk : S77x1280.Slices ![0, o] S77x160) (r : Fin 512) (j : Fin 160) :
    k2_pay9 (F := Ideal) (extractStridedSlice S512x160 ![0, o] Q hq) (extractStridedSlice S77x160 ![0, o] K hk)
        (extractStridedSlice S77x160 ![0, o] V hk) (ix2 r j)
      = tileH Q K V r h (col h j) := by
  rw [head_apply]
  have hs : rowScore (extractStridedSlice S512x160 ![0, o] Q hq) (extractStridedSlice S77x160 ![0, o] K hk) r = tsc Q K r h := by
    funext t
    unfold rowScore tsc
    refine congrArg (· * scaleC) (Finset.sum_congr rfl fun l _ => ?_)
    rw [slice2_axis1_apply o Q hq r l (col h l) (by show h.val * 160 + l.val = o + l.val; omega),
      slice2_axis1_apply o K hk t l (col h l) (by show h.val * 160 + l.val = o + l.val; omega)]
  rw [hs]
  unfold tileH
  refine congrArg (· * oneC) (Finset.sum_congr rfl fun t _ => ?_)
  rw [slice2_axis1_apply o V hk t j (col h j) (by show h.val * 160 + j.val = o + j.val; omega)]

/-- The head of a column built from the head's number and a lane is that head. -/
theorem headOf_col (h : Fin 8) (j : Fin 160) : headOf (col h j) = h :=
  Fin.ext (by show (h.val * 160 + j.val) / 160 = h.val; have := j.isLt; omega)

/-- A piece at column offset o = 160·h embeds (r, j) at (r, 160·h + j). -/
theorem emb_piece (o : Nat) (h : Fin 8) (ho : o = h.val * 160) (inb : ∀ a, (![0, o] : Fin 2 → Nat) a + (![512, 160] : Fin 2 → Nat) a ≤ S512x1280.size a)
    (r : Fin 512) (j : Fin 160) :
    (Rect.unit (s := S512x1280) ![0, o] ![512, 160] inb).emb (ix2 r j) = ix2 r (col h j) :=
  funext fun a => Fin.ext (by
    match a with
    | ⟨0, _⟩ => show 0 + 1 * r.val = r.val; omega
    | ⟨1, _⟩ => show o + 1 * j.val = h.val * 160 + j.val; omega)

/-- The eight column pieces tile the scratch matrix, so every index is in one of them. -/
theorem scratch_cover (x0 : FVec Ideal S1x512x1280 .f32) (x1 : FVec Ideal S1280x1280 .bf16) (x2 x3 : FVec Ideal S1x77x1280 .bf16)
    (y : S512x1280.Idx) : ∃ p ∈ scratchL (F := Ideal) x0 x1 x2 x3, y ∈ p.1.set := by
  unfold scratchL
  exact View.cover_of_tiledL _ ![512, 160] (by sl_kernel_rfl) y

/-- The scratch matrix read back after the eight column stores is ONE function of its index: at (r, d), head d / 160 at
    column d.  Each piece is the block of that function its rectangle names, and the pieces tile the matrix. -/
theorem scratch_apply (x0 : FVec Ideal S1x512x1280 .f32) (x1 : FVec Ideal S1280x1280 .bf16) (x2 x3 : FVec Ideal S1x77x1280 .bf16)
    (y : S512x1280.Idx) :
    View.canon (scratchL (F := Ideal) x0 x1 x2 x3) y = merged (k2_pay2 x0 x1) (k2_pay3 x2) (k2_pay4 x3) y := by
  refine View.canon_apply_of_pieces (merged (k2_pay2 x0 x1) (k2_pay3 x2) (k2_pay4 x3)) (scratchL (F := Ideal) x0 x1 x2 x3) ?_ y
    (scratch_cover x0 x1 x2 x3 y)
  intro p hp x
  simp only [scratchL, List.mem_cons, List.not_mem_nil, or_false] at hp
  rcases hp with rfl | rfl | rfl | rfl | rfl | rfl | rfl | rfl
  all_goals
    obtain ⟨r, j, rfl⟩ : ∃ (r : Fin 512) (j : Fin 160), x = ix2 r j := ⟨x 0, x 1, eq_ix2 x⟩
  · rw [emb_piece 1120 7 (by decide) _ r j]
    show _ = tileH _ _ _ r (headOf (col 7 j)) (col 7 j)
    rw [headOf_col]
    exact head_slice _ _ _ 1120 7 (by decide) slices_S512x1280_o0_1120_S512x160 slices_S77x1280_o0_1120_S77x160 r j
  · rw [emb_piece 960 6 (by decide) _ r j]
    show _ = tileH _ _ _ r (headOf (col 6 j)) (col 6 j)
    rw [headOf_col]
    exact head_slice _ _ _ 960 6 (by decide) slices_S512x1280_o0_960_S512x160 slices_S77x1280_o0_960_S77x160 r j
  · rw [emb_piece 800 5 (by decide) _ r j]
    show _ = tileH _ _ _ r (headOf (col 5 j)) (col 5 j)
    rw [headOf_col]
    exact head_slice _ _ _ 800 5 (by decide) slices_S512x1280_o0_800_S512x160 slices_S77x1280_o0_800_S77x160 r j
  · rw [emb_piece 640 4 (by decide) _ r j]
    show _ = tileH _ _ _ r (headOf (col 4 j)) (col 4 j)
    rw [headOf_col]
    exact head_slice _ _ _ 640 4 (by decide) slices_S512x1280_o0_640_S512x160 slices_S77x1280_o0_640_S77x160 r j
  · rw [emb_piece 480 3 (by decide) _ r j]
    show _ = tileH _ _ _ r (headOf (col 3 j)) (col 3 j)
    rw [headOf_col]
    exact head_slice _ _ _ 480 3 (by decide) slices_S512x1280_o0_480_S512x160 slices_S77x1280_o0_480_S77x160 r j
  · rw [emb_piece 320 2 (by decide) _ r j]
    show _ = tileH _ _ _ r (headOf (col 2 j)) (col 2 j)
    rw [headOf_col]
    exact head_slice _ _ _ 320 2 (by decide) slices_S512x1280_o0_320_S512x160 slices_S77x1280_o0_320_S77x160 r j
  · rw [emb_piece 160 1 (by decide) _ r j]
    show _ = tileH _ _ _ r (headOf (col 1 j)) (col 1 j)
    rw [headOf_col]
    exact head_slice _ _ _ 160 1 (by decide) slices_S512x1280_o0_160_S512x160 slices_S77x1280_o0_160_S77x160 r j
  · rw [emb_piece 0 0 (by decide) _ r j]
    show _ = tileH _ _ _ r (headOf (col 0 j)) (col 0 j)
    rw [headOf_col]
    exact head_slice _ _ _ 0 0 (by decide) slices_S512x1280_o0_0_S512x160 slices_S77x1280_o0_0_S77x160 r j

/-- The scratch matrix read back, at an index: head d / 160 at column d. -/
theorem scratchRead_apply (x0 : FVec Ideal S1x512x1280 .f32) (x1 : FVec Ideal S1280x1280 .bf16) (x2 x3 : FVec Ideal S1x77x1280 .bf16)
    (y : S512x1280.Idx) :
    scratchRead (F := Ideal) x0 x1 x2 x3 y = merged (k2_pay2 x0 x1) (k2_pay3 x2) (k2_pay4 x3) y := by
  unfold scratchRead
  rw [idx_unit_zero hz2]
  exact scratch_apply x0 x1 x2 x3 y

end Cert.Attn.Body

end
-- ==== Proof.KernProj.lean ====
/-
  The two projections of the fused body and its layout casts, read at an entry.

  The query projection of a tile is the tile's rows against the weight's columns; the output projection is the merged
  heads' rows against the output weight's columns, plus the bias row; a block [1, n, d] viewed as a matrix [n, d] and a
  matrix stored back as a block read the same entry.
-/
import proofs.«130863_j42743514530014_2_alg».proof.Proof.Gen.KernelIdeal.Skeleton
import proofs.«130863_j42743514530014_2_alg».proof.Proof.LibMatmulSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Attn.Proj

open Cert.KernelIdeal Cert.KernelIdeal.Gen
open Idealize.ShloMosaic Idealize.ShloMosaic.ValueIdx Cert.GraphConv

abbrev Dsq : DotDims S512x1280 S1280x1280 S512x1280 := dot_S512x1280_S1280x1280_S512x1280_1_0_0_1_n_n

theorem sq_l0 (i : S512x1280.Idx) (q : Dsq.contr.Idx) : (Dsq.lhsIdx i q 0).val = (i 0).val := by
  unfold DotDims.lhsIdx
  rw [dif_neg (show ¬(0 : Fin S512x1280.rank) ∈ Dsq.lhsBatch by decide), dif_pos (show (0 : Fin S512x1280.rank) ∈ Dsq.lhsNonContracting by decide)]
  rfl
theorem sq_l1 (i : S512x1280.Idx) (q : Dsq.contr.Idx) : (Dsq.lhsIdx i q 1).val = (q ⟨0, by decide⟩).val :=
  Dsq.lhsIdx_val_of_single rfl i q
theorem sq_r0 (i : S512x1280.Idx) (q : Dsq.contr.Idx) : (Dsq.rhsIdx i q 0).val = (q ⟨0, by decide⟩).val :=
  Dsq.rhsIdx_val_of_single rfl i q
theorem sq_r1 (i : S512x1280.Idx) (q : Dsq.contr.Idx) : (Dsq.rhsIdx i q 1).val = (i 1).val := by
  unfold DotDims.rhsIdx
  rw [dif_neg (show ¬(1 : Fin S1280x1280.rank) ∈ Dsq.rhsBatch by decide), dif_pos (show (1 : Fin S1280x1280.rank) ∈ Dsq.rhsNonContracting by decide)]
  rfl

/-- The query projection of a tile at (r, d): row r of the tile against column d of the weight. -/
theorem q_apply (x0 : FVec Ideal S1x512x1280 .f32) (x1 : FVec Ideal S1280x1280 .bf16) (r : Fin 512) (d : Fin 1280) :
    k2_pay2 (F := Ideal) x0 x1 (ix2 r d) = ∑ c : Fin 1280, x0 (ix3 (0 : Fin 1) r c) * x1 (ix2 c d) := by
  show matmul (F := Ideal) Dsq none (truncf .bf16 (shapeCast S512x1280 x0 shapeCasts_S1x512x1280_S512x1280) bitsLt_bf16_f32)
      (shapeCast S1280x1280 x1 shapeCasts_S1280x1280_S1280x1280) (constant S512x1280 .f32 0x00000000#32) (ix2 r d) = _
  refine (matmul_zero_sum Dsq none rfl rfl sq_l0 sq_l1 sq_r0 sq_r1 _ _ (ix2 r d)).trans ?_
  refine Finset.sum_congr rfl fun c _ => ?_
  rw [shapeCast_self]
  exact congrArg (· * x1 (ix2 c d)) (shapeCast_1ab_ab_apply x0 shapeCasts_S1x512x1280_S512x1280 r c)

/-- The batch's keys (values) viewed as a matrix. -/
theorem k_apply (x2 : FVec Ideal S1x77x1280 .bf16) (t : Fin 77) (d : Fin 1280) :
    k2_pay3 (F := Ideal) x2 (ix2 t d) = x2 (ix3 (0 : Fin 1) t d) :=
  shapeCast_1ab_ab_apply x2 shapeCasts_S1x77x1280_S77x1280 t d
theorem v_apply (x3 : FVec Ideal S1x77x1280 .bf16) (t : Fin 77) (d : Fin 1280) :
    k2_pay4 (F := Ideal) x3 (ix2 t d) = x3 (ix3 (0 : Fin 1) t d) :=
  shapeCast_1ab_ab_apply x3 shapeCasts_S1x77x1280_S77x1280 t d

/-- The output projection at (r, e): row r of the merged heads against column e of the weight, plus the bias at e. -/
theorem outproj_apply (M : FVec Ideal S512x1280 .f32) (W : FVec Ideal S1280x1280 .bf16) (B : FVec Ideal S1x1280 .f32)
    (r : Fin 512) (e : Fin 1280) :
    k2_pay18 (F := Ideal) M W B (ix2 r e) = (∑ d : Fin 1280, M (ix2 r d) * W (ix2 d e)) + B (ix2 (0 : Fin 1) e) := by
  show matmul (F := Ideal) Dsq none (truncf .bf16 M bitsLt_bf16_f32) (shapeCast S1280x1280 W shapeCasts_S1280x1280_S1280x1280)
        (constant S512x1280 .f32 0x00000000#32) (ix2 r e)
      + broadcastTo S512x1280 (shapeCast S1x1280 B shapeCasts_S1x1280_S1x1280) broadcasts_S1x1280_S512x1280 (ix2 r e) = _
  rw [broadcastTo_1b_ab_apply, shapeCast_self, shapeCast_self]
  refine congrArg (· + B (ix2 (0 : Fin 1) e)) ?_
  exact matmul_zero_sum Dsq none rfl rfl sq_l0 sq_l1 sq_r0 sq_r1 _ W (ix2 r e)

/-- The result matrix stored as a block [1, 512, 1280] reads the same entry. -/
theorem recast_apply (v : FVec Ideal S512x1280 .f32) (u : Fin 1) (r : Fin 512) (e : Fin 1280) :
    k2_pay1 (F := Ideal) v (ix3 u r e) = v (ix2 r e) :=
  shapeCast_ab_1ab_apply v shapeCasts_S512x1280_S1x512x1280 u r e

end Cert.Attn.Proj

end
-- ==== Proof.KernTile.lean ====
/-
  One tile's output block is the tile's part of the specification.

  If a grid point's six loaded blocks hold: the hidden-state rows of batch b, tile si; the transposed query weight; the
  batch's keys and values as the encoder projections; the transposed output weight; the bias as a row — then the block
  the body leaves, at (·, r, e), is the specification's result at batch b, position 512·si + r, column e.  Query and key
  lanes are read column by column, so head h's scores and weights are the specification's; the value column d is lane
  d % 160 of head d / 160.
-/
import proofs.«130863_j42743514530014_2_alg».proof.Proof.KernBody
import proofs.«130863_j42743514530014_2_alg».proof.Proof.KernProj
import proofs.«130863_j42743514530014_2_alg».proof.Proof.AttnSpec

set_option maxRecDepth 16384

noncomputable section

namespace Cert.Attn.Tile

open Cert.KernelIdeal Cert.KernelIdeal.Gen
open Idealize.ShloMosaic Idealize.ShloMosaic.ValueIdx
open Cert.Lib.SoftmaxLast Cert.Attn.Head Cert.Attn.Body Cert.Attn.Proj

/-- Row r of tile si among the 4096 positions. -/
def rowOf (si : Fin 8) (r : Fin 512) : Fin 4096 := ⟨si.val * 512 + r.val, by have := si.isLt; have := r.isLt; omega⟩

theorem tile_value
    (x0 : FVec Ideal S1x512x1280 .f32) (x1 : FVec Ideal S1280x1280 .bf16) (x2 x3 : FVec Ideal S1x77x1280 .bf16)
    (x4 : FVec Ideal S1280x1280 .bf16) (x5 : FVec Ideal S1x1280 .f32)
    (X : (⟨3, ![16, 4096, 1280]⟩ : Shape).Idx → EReal) (E : (⟨3, ![16, 77, 768]⟩ : Shape).Idx → EReal)
    (wq : (⟨2, ![1280, 1280]⟩ : Shape).Idx → EReal) (wk wv : (⟨2, ![1280, 768]⟩ : Shape).Idx → EReal)
    (wo : (⟨2, ![1280, 1280]⟩ : Shape).Idx → EReal) (bo : (⟨1, ![1280]⟩ : Shape).Idx → EReal)
    (b : Fin 16) (si : Fin 8)
    (h0 : ∀ (r : Fin 512) (c : Fin 1280), x0 (ix3 (0 : Fin 1) r c) = X (ix3 b (rowOf si r) c))
    (h1 : ∀ c d : Fin 1280, x1 (ix2 c d) = wq (ix2 d c))
    (h2 : ∀ (t : Fin 77) (d : Fin 1280), x2 (ix3 (0 : Fin 1) t d) = encProj E wk b t d)
    (h3 : ∀ (t : Fin 77) (d : Fin 1280), x3 (ix3 (0 : Fin 1) t d) = encProj E wv b t d)
    (h4 : ∀ d e : Fin 1280, x4 (ix2 d e) = wo (ix2 e d))
    (h5 : ∀ e : Fin 1280, x5 (ix2 (0 : Fin 1) e) = bo (ix1 e))
    (u : Fin 1) (r : Fin 512) (e : Fin 1280) :
    k2_pay1 (F := Ideal) (k2_pay18 (F := Ideal) (scratchRead (F := Ideal) x0 x1 x2 x3) x4 x5) (ix3 u r e)
      = attnOut X E wq wk wv wo bo (ix3 b (rowOf si r) e) := by
  rw [recast_apply, outproj_apply, attnOut_apply, h5]
  refine congrArg (· + bo (ix1 e)) (Finset.sum_congr rfl fun d _ => ?_)
  rw [h4]
  refine congrArg (· * wo (ix2 e d)) ?_
  rw [scratchRead_apply]
  show tileH (k2_pay2 x0 x1) (k2_pay3 x2) (k2_pay4 x3) r (headOf d) d = mixed X E wq wk wv b (rowOf si r) (headOf d) (laneOf d)
  have hQ : ∀ d' : Fin 1280, k2_pay2 (F := Ideal) x0 x1 (ix2 r d') = query X wq b (rowOf si r) d' := fun d' => by
    rw [q_apply]; unfold query
    exact Finset.sum_congr rfl fun c _ => by rw [h0, h1]
  have hK : ∀ (t : Fin 77) (d' : Fin 1280), k2_pay3 (F := Ideal) x2 (ix2 t d') = encProj E wk b t d' :=
    fun t d' => (k_apply x2 t d').trans (h2 t d')
  have hV : ∀ (t : Fin 77) (d' : Fin 1280), k2_pay4 (F := Ideal) x3 (ix2 t d') = encProj E wv b t d' :=
    fun t d' => (v_apply x3 t d').trans (h3 t d')
  have hs : tsc (k2_pay2 x0 x1) (k2_pay3 x2) r (headOf d) = score X E wq wk b (headOf d) (rowOf si r) := by
    funext t
    unfold tsc score
    exact congrArg (· * scaleC) (Finset.sum_congr rfl fun l _ => by rw [hQ, hK])
  unfold tileH mixed prob
  rw [hs]
  refine congrArg (· * oneC) (Finset.sum_congr rfl fun t _ => ?_)
  rw [hV, col_head_lane]

end Cert.Attn.Tile

end
-- ==== Proof.KernBlocks.lean ====
/-
  The fused region's result array, from its blocks.

  The region runs over 16 batches × 8 tiles of 512 positions.  At grid point t = (b, si) the hidden-state window and the
  output window sit at block (b, si, 0); the key and value windows at block (b, 0, 0); the two weights and the bias are
  whole.  What the point writes back is therefore the specification's result restricted to batch b, positions
  512·si … 512·si + 511; the 128 blocks tile the array, so the array ends holding the specification's result.
-/
import proofs.«130863_j42743514530014_2_alg».proof.Proof.KernTile
import Idealize.ShloMosaic.Lib.Pipeline.Value

set_option maxRecDepth 16384

noncomputable section

namespace Cert.Attn.Blocks

open Cert.KernelIdeal Cert.KernelIdeal.Gen
open Idealize.ShloMosaic Idealize.ShloMosaic.TcCoe Idealize.ShloMosaic.ValueIdx
open Idealize.SL Idealize.SL.Sem
open Cert.Attn.Body Cert.Attn.Tile

/-- The printed index maps over the grid: which block of its array each window holds at a point. -/
theorem idx_facts : ∀ t : Fin cfg2.N,
    win2_0.index t (0 : Fin 3) = win2_6.index t (0 : Fin 3) ∧ win2_0.index t (1 : Fin 3) = win2_6.index t (1 : Fin 3)
      ∧ win2_0.index t (2 : Fin 3) = 0
    ∧ win2_1.index t (0 : Fin 2) = 0 ∧ win2_1.index t (1 : Fin 2) = 0
    ∧ win2_2.index t (0 : Fin 3) = win2_6.index t (0 : Fin 3) ∧ win2_2.index t (1 : Fin 3) = 0 ∧ win2_2.index t (2 : Fin 3) = 0
    ∧ win2_3.index t (0 : Fin 3) = win2_6.index t (0 : Fin 3) ∧ win2_3.index t (1 : Fin 3) = 0 ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) < 16 ∧ win2_6.index t (1 : Fin 3) < 8 ∧ win2_6.index t (2 : Fin 3) = 0 :=
  (by decide +kernel : ∀ t : Fin grid2.N, _)

/-- Every (batch, tile) is some point's output block. -/
theorem idx_onto : ∀ (q0 : Fin 16) (q1 : Fin 8), ∃ t : Fin cfg2.N, win2_6.index t = ![q0.val, q1.val, 0] :=
  (by decide +kernel : ∀ (q0 : Fin 16) (q1 : Fin 8), ∃ t : Fin grid2.N, win2_6.index t = ![q0.val, q1.val, 0])

section
variable (V : (c : Dev nD) → (b : Ref sig .tc) → Buf (Elt Ideal) ((c : Thread nD τ).loc b)) (c : Dev nD)
  (X : S16x4096x1280.Idx → EReal) (E : S16x77x768.Idx → EReal) (wq : S1280x1280.Idx → EReal) (wk wv : S1280x768.Idx → EReal)
  (wo : S1280x1280.Idx → EReal) (bo : S1280.Idx → EReal)
  (hx : (V c main_arg0 : S16x4096x1280.Idx → EReal) = X)
  (hwq : ∀ k d : Fin 1280, (V c main_v1 : S1280x1280.Idx → EReal) (ix2 k d) = wq (ix2 d k))
  (hk : ∀ (b : Fin 16) (t : Fin 77) (d : Fin 1280), (V c main_v12 : S16x77x1280.Idx → EReal) (ix3 b t d) = encProj E wk b t d)
  (hv : ∀ (b : Fin 16) (t : Fin 77) (d : Fin 1280), (V c main_v13 : S16x77x1280.Idx → EReal) (ix3 b t d) = encProj E wv b t d)
  (hwo : ∀ k d : Fin 1280, (V c main_v7 : S1280x1280.Idx → EReal) (ix2 k d) = wo (ix2 d k))
  (hbo : ∀ d : Fin 1280, (V c main_v8 : S1x1280.Idx → EReal) (ix2 (0 : Fin 1) d) = bo (ix1 d))

include hx hwq hk hv hwo hbo

/-- What grid point t writes back is block t of the specification's result. -/
theorem flushed_eq (t : Fin cfg2.N) :
    (dat2 V c).flushed 6 t = ((cfg2.win 6).blk t).view.read (Elt Ideal) (attnOut X E wq wk wv wo bo) := by
  show (cfg2.win 6).cut (grid2.coords t) ((dat2 V c).after 6 t) = _
  rw [after2_6]
  unfold outsAt2
  rw [out_block_eq]
  obtain ⟨a00, a01, a02, a10, a11, a20, a21, a22, a30, a31, a32, a40, a41, a50, a51, hb, hsi, a62⟩ := idx_facts t
  funext y
  obtain ⟨u, r, e, rfl⟩ : ∃ (u : Fin 1) (r : Fin 512) (e : Fin 1280), y = ix3 u r e := ⟨y 0, y 1, y 2, eq_ix3 y⟩
  refine (tile_value (iblk2 V c 0 t) (iblk2 V c 1 t) (iblk2 V c 2 t) (iblk2 V c 3 t) (iblk2 V c 4 t) (iblk2 V c 5 t)
    X E wq wk wv wo bo ⟨win2_6.index t (0 : Fin 3), hb⟩ ⟨win2_6.index t (1 : Fin 3), hsi⟩ ?_ ?_ ?_ ?_ ?_ ?_ u r e).trans ?_
  · intro r' cc
    show V c main_arg0 (((cfg2.win 0).blk t).view.emb (ix3 (0 : Fin 1) r' cc)) = _
    rw [hx]
    exact congrArg X (funext fun a => Fin.ext (by
      match a with
      | ⟨0, _⟩ => show win2_0.index t (0 : Fin 3) * 1 + 1 * 0 = win2_6.index t (0 : Fin 3); omega
      | ⟨1, _⟩ => show win2_0.index t (1 : Fin 3) * 512 + 1 * r'.val = win2_6.index t (1 : Fin 3) * 512 + r'.val; omega
      | ⟨2, _⟩ => show win2_0.index t (2 : Fin 3) * 1280 + 1 * cc.val = cc.val; omega))
  · intro cc d
    show V c main_v1 (((cfg2.win 1).blk t).view.emb (ix2 cc d)) = _
    refine Eq.trans (congrArg (V c main_v1) (funext fun a => Fin.ext ?_)) (hwq cc d)
    match a with
    | ⟨0, _⟩ => show win2_1.index t (0 : Fin 2) * 1280 + 1 * cc.val = cc.val; omega
    | ⟨1, _⟩ => show win2_1.index t (1 : Fin 2) * 1280 + 1 * d.val = d.val; omega
  · intro t' d
    show V c main_v12 (((cfg2.win 2).blk t).view.emb (ix3 (0 : Fin 1) t' d)) = _
    refine Eq.trans (congrArg (V c main_v12) (funext fun a => Fin.ext ?_)) (hk ⟨win2_6.index t (0 : Fin 3), hb⟩ t' d)
    match a with
    | ⟨0, _⟩ => show win2_2.index t (0 : Fin 3) * 1 + 1 * 0 = win2_6.index t (0 : Fin 3); omega
    | ⟨1, _⟩ => show win2_2.index t (1 : Fin 3) * 77 + 1 * t'.val = t'.val; omega
    | ⟨2, _⟩ => show win2_2.index t (2 : Fin 3) * 1280 + 1 * d.val = d.val; omega
  · intro t' d
    show V c main_v13 (((cfg2.win 3).blk t).view.emb (ix3 (0 : Fin 1) t' d)) = _
    refine Eq.trans (congrArg (V c main_v13) (funext fun a => Fin.ext ?_)) (hv ⟨win2_6.index t (0 : Fin 3), hb⟩ t' d)
    match a with
    | ⟨0, _⟩ => show win2_3.index t (0 : Fin 3) * 1 + 1 * 0 = win2_6.index t (0 : Fin 3); omega
    | ⟨1, _⟩ => show win2_3.index t (1 : Fin 3) * 77 + 1 * t'.val = t'.val; omega
    | ⟨2, _⟩ => show win2_3.index t (2 : Fin 3) * 1280 + 1 * d.val = d.val; omega
  · intro d e'
    show V c main_v7 (((cfg2.win 4).blk t).view.emb (ix2 d e')) = _
    refine Eq.trans (congrArg (V c main_v7) (funext fun a => Fin.ext ?_)) (hwo d e')
    match a with
    | ⟨0, _⟩ => show win2_4.index t (0 : Fin 2) * 1280 + 1 * d.val = d.val; omega
    | ⟨1, _⟩ => show win2_4.index t (1 : Fin 2) * 1280 + 1 * e'.val = e'.val; omega
  · intro e'
    show V c main_v8 (((cfg2.win 5).blk t).view.emb (ix2 (0 : Fin 1) e')) = _
    refine Eq.trans (congrArg (V c main_v8) (funext fun a => Fin.ext ?_)) (hbo e')
    match a with
    | ⟨0, _⟩ => show win2_5.index t (0 : Fin 2) * 1 + 1 * 0 = 0; omega
    | ⟨1, _⟩ => show win2_5.index t (1 : Fin 2) * 1280 + 1 * e'.val = e'.val; omega
  · show _ = attnOut X E wq wk wv wo bo (((cfg2.win 6).blk t).view.emb (ix3 u r e))
    refine congrArg (attnOut X E wq wk wv wo bo) (funext fun a => Fin.ext ?_)
    have hu : u.val = 0 := by omega
    match a with
    | ⟨0, _⟩ => show win2_6.index t (0 : Fin 3) = win2_6.index t (0 : Fin 3) * 1 + 1 * u.val; omega
    | ⟨1, _⟩ => show win2_6.index t (1 : Fin 3) * 512 + r.val = win2_6.index t (1 : Fin 3) * 512 + 1 * r.val; omega
    | ⟨2, _⟩ => show e.val = win2_6.index t (2 : Fin 3) * 1280 + 1 * e.val; omega

omit hx hwq hk hv hwo hbo in
/-- An index of the result array is in point t's block iff each coordinate is in the block's range on its axis. -/
theorem mem_blk (t : Fin cfg2.N) (i : S16x4096x1280.Idx) :
    i ∈ ((cfg2.win 6).blk t).view.set ↔ ∀ a : Fin 3, win2_6.index t a * S1x512x1280.size a ≤ (i a).val
      ∧ (i a).val < win2_6.index t a * S1x512x1280.size a + S1x512x1280.size a := by
  show i ∈ ((View.whole main_v14).slice (win2_6.rect t)).set ↔ _
  rw [View.set_slice_whole, Rect.mem_set_unit]
  exact Iff.rfl

omit hx hwq hk hv hwo hbo in
/-- Every index of the result array is in some flushing point's block. -/
theorem cover (i : S16x4096x1280.Idx) :
    ∃ t : Fin cfg2.N, (cfg2.win 6).flush t = true ∧ i ∈ ((cfg2.win 6).blk t).view.set := by
  have hi0 : (i 0).val < 16 := (i 0).isLt
  have hi1 : (i 1).val < 4096 := (i 1).isLt
  have hi2 : (i 2).val < 1280 := (i 2).isLt
  obtain ⟨t, ht⟩ := idx_onto ⟨(i 0).val, hi0⟩ ⟨(i 1).val / 512, by omega⟩
  have q0 : win2_6.index t (0 : Fin 3) = (i 0).val := congrFun ht 0
  have q1 : win2_6.index t (1 : Fin 3) = (i 1).val / 512 := congrFun ht 1
  have q2 : win2_6.index t (2 : Fin 3) = 0 := congrFun ht 2
  refine ⟨t, flush2_6 t, ?_⟩
  rw [mem_blk]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 1280 ≤ (i 2).val ∧ (i 2).val < win2_6.index t (2 : Fin 3) * 1280 + 1280; omega

/-- The result array after the region: the specification's result. -/
theorem final : (dat2 V c).arrAt 6 cfg2.N = attnOut X E wq wk wv wo bo :=
  (dat2 V c).arrAt_eq_of_cover 6 (attnOut X E wq wk wv wo bo)
    (fun t _ => flushed_eq V c X E wq wk wv wo bo hx hwq hk hv hwo hbo t) cover

end

end Cert.Attn.Blocks

end
-- ==== Proof.KernEntryHost.lean ====
/-
  The buffers the third kernel reads that only host operations wrote: each holds, when that kernel starts, what the
  first stretch of host operations left in it, because neither linear kernel and neither later reshape touches it.
  The four weights are transposed (a change of element format is the identity on extended reals), the bias becomes a
  one-row array and the encoder states lose the boundary between their batch and text axes.
-/
import proofs.«130863_j42743514530014_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.Attn.Entry

open Cert.KernelIdeal Cert.KernelIdeal.Gen Idealize.ShloMosaic Idealize.ShloMosaic.ValueIdx Idealize.ShloMosaic.TcCoe
open Idealize.ShloMosaic.Pipeline (Dat)

variable (m : (ℓ : Loc nD τ sig) → Buf (Elt Ideal) ℓ) (ρ : Dev nD → PrngReg) (c : Dev nD)

/-- No operation of the second host stretch writes the buffer. -/
theorem W4_keep (b : Ref sig .tc) (h12 : b ≠ main_v12) (h13 : b ≠ main_v13) :
    W4 (F := Ideal) m ρ c (Proc.devRef .tc b) = W3 (F := Ideal) m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h12, StableHlo.devRef_ne_of_ne h13⟩))

/-- A buffer that neither linear kernel and no operation of the second host stretch touches holds, when the third
    kernel starts, what the first host stretch left in it. -/
theorem V4_eq_W1 (b : Ref sig .tc) (h12 : b ≠ main_v12) (h13 : b ≠ main_v13)
    (h0 : ∀ w, Pipeline.arrRef spec0 w ≠ b) (h1 : ∀ w, Pipeline.arrRef spec1 w ≠ b) :
    V4 (F := Ideal) m ρ c b = W1 (F := Ideal) m ρ c (Proc.devRef .tc b) :=
  calc W4 (F := Ideal) m ρ c (Proc.devRef .tc b)
    _ = W3 m ρ c (Proc.devRef .tc b) := W4_keep m ρ c b h12 h13
    _ = W2 m ρ c (Proc.devRef .tc b) := W3_of_ne m ρ c b h1
    _ = W1 m ρ c (Proc.devRef .tc b) := W2_of_ne m ρ c b h0

/-! ## What the first host stretch leaves -/

/-- The first weight, transposed. -/
theorem W1_v1 : (W1 (F := Ideal) m ρ c (Proc.devRef .tc main_v1) : S1280x1280.Idx → EReal)
    = (truncf (F := Ideal) .bf16 (transpose S1280x1280 [1, 0] (m ((c : Thread nD τ).loc main_arg2) : FVec Ideal S1280x1280 .f32) transposes_S1280x1280_S1280x1280_1_0 : FVec Ideal S1280x1280 .f32) bitsLt_bf16_f32 : FVec Ideal S1280x1280 .bf16) := by
  show StableHlo.after hostOps0 (W0 (F := Ideal) m ρ c) (Proc.devRef .tc main_v1) = _
  after_results

/-- The key weight, transposed. -/
theorem W1_v3 : (W1 (F := Ideal) m ρ c (Proc.devRef .tc main_v3) : S768x1280.Idx → EReal)
    = (truncf (F := Ideal) .bf16 (transpose S768x1280 [1, 0] (m ((c : Thread nD τ).loc main_arg3) : FVec Ideal S1280x768 .f32) transposes_S1280x768_S768x1280_1_0 : FVec Ideal S768x1280 .f32) bitsLt_bf16_f32 : FVec Ideal S768x1280 .bf16) := by
  show StableHlo.after hostOps0 (W0 (F := Ideal) m ρ c) (Proc.devRef .tc main_v3) = _
  after_results

/-- The value weight, transposed. -/
theorem W1_v5 : (W1 (F := Ideal) m ρ c (Proc.devRef .tc main_v5) : S768x1280.Idx → EReal)
    = (truncf (F := Ideal) .bf16 (transpose S768x1280 [1, 0] (m ((c : Thread nD τ).loc main_arg4) : FVec Ideal S1280x768 .f32) transposes_S1280x768_S768x1280_1_0 : FVec Ideal S768x1280 .f32) bitsLt_bf16_f32 : FVec Ideal S768x1280 .bf16) := by
  show StableHlo.after hostOps0 (W0 (F := Ideal) m ρ c) (Proc.devRef .tc main_v5) = _
  after_results

/-- The output weight, transposed. -/
theorem W1_v7 : (W1 (F := Ideal) m ρ c (Proc.devRef .tc main_v7) : S1280x1280.Idx → EReal)
    = (truncf (F := Ideal) .bf16 (transpose S1280x1280 [1, 0] (m ((c : Thread nD τ).loc main_arg5) : FVec Ideal S1280x1280 .f32) transposes_S1280x1280_S1280x1280_1_0 : FVec Ideal S1280x1280 .f32) bitsLt_bf16_f32 : FVec Ideal S1280x1280 .bf16) := by
  show StableHlo.after hostOps0 (W0 (F := Ideal) m ρ c) (Proc.devRef .tc main_v7) = _
  after_results

/-- The bias as a one-row array. -/
theorem W1_v8 : (W1 (F := Ideal) m ρ c (Proc.devRef .tc main_v8) : S1x1280.Idx → EReal)
    = shapeCast S1x1280 (m ((c : Thread nD τ).loc main_arg6) : S1280.Idx → EReal) shapeCasts_S1280_S1x1280 := by
  show StableHlo.after hostOps0 (W0 (F := Ideal) m ρ c) (Proc.devRef .tc main_v8) = _
  after_results
  rfl

/-- The encoder states with the batch and text axes merged. -/
theorem W1_v9 : (W1 (F := Ideal) m ρ c (Proc.devRef .tc main_v9) : S1232x768.Idx → EReal)
    = shapeCast S1232x768 (m ((c : Thread nD τ).loc main_arg1) : S16x77x768.Idx → EReal) shapeCasts_S16x77x768_S1232x768 := by
  show StableHlo.after hostOps0 (W0 (F := Ideal) m ρ c) (Proc.devRef .tc main_v9) = _
  after_results
  rfl

/-- A transposed square weight read at an entry. -/
theorem transposed_sq (x : FVec Ideal S1280x1280 .f32) (k d : Fin 1280) :
    (truncf (F := Ideal) .bf16 (transpose S1280x1280 [1, 0] x transposes_S1280x1280_S1280x1280_1_0 : FVec Ideal S1280x1280 .f32) bitsLt_bf16_f32 : FVec Ideal S1280x1280 .bf16) (ix2 k d) = x (ix2 d k) := by
  rw [truncf_apply]
  exact transpose_apply _ _ _ (ix2 k d) (ix2 d k) (fun b => by match b with | ⟨0, _⟩ => rfl | ⟨1, _⟩ => rfl)

/-- A transposed encoder weight read at an entry. -/
theorem transposed_enc (x : FVec Ideal S1280x768 .f32) (k : Fin 768) (d : Fin 1280) :
    (truncf (F := Ideal) .bf16 (transpose S768x1280 [1, 0] x transposes_S1280x768_S768x1280_1_0 : FVec Ideal S768x1280 .f32) bitsLt_bf16_f32 : FVec Ideal S768x1280 .bf16) (ix2 k d) = x (ix2 d k) := by
  rw [truncf_apply]
  exact transpose_apply _ _ _ (ix2 k d) (ix2 d k) (fun b => by match b with | ⟨0, _⟩ => rfl | ⟨1, _⟩ => rfl)

end Cert.Attn.Entry

end
-- ==== Proof.KernEntryLinear.lean ====
/-
  The two linear kernels.  Each runs at one grid point whose three blocks are its three whole arrays, loads the merged
  encoder states and a transposed weight, and stores their matrix product; so after the kernel its output array holds,
  entry (r, d), the sum over the 768 shared positions of states[r, k] * weight[k, d], of the two input arrays as the
  kernel found them.
-/
import proofs.«130863_j42743514530014_2_alg».proof.Proof.Gen.KernelIdeal.Frame
import proofs.«130863_j42743514530014_2_alg».proof.Proof.LibMatmulSum
import Idealize.ShloMosaic.Lib.Pipeline.Value
import Idealize.ShloMosaic.Lib.ValueIdx

set_option maxRecDepth 16384

noncomputable section

namespace Cert.Attn.Entry

open Cert.KernelIdeal Cert.KernelIdeal.Gen Idealize.ShloMosaic Idealize.ShloMosaic.ValueIdx Idealize.ShloMosaic.TcCoe
open Idealize.ShloMosaic.Pipeline (Dat)

variable (c : Dev nD)

variable (V : (c : Dev nD) → (b : Ref sig .tc) → Buf (Elt Ideal) ((c : Thread nD τ).loc b))

theorem zeros2 : (![0, 0] : Fin 2 → Nat) = fun _ => 0 := funext fun a => by fin_cases a <;> rfl

/-! ## The product's dimension record, coordinate by coordinate -/

theorem lhs_row (i : S1232x1280.Idx) (q : dot_S1232x768_S768x1280_S1232x1280_1_0_0_1_n_n.contr.Idx) :
    (dot_S1232x768_S768x1280_S1232x1280_1_0_0_1_n_n.lhsIdx i q 0).val = (i 0).val := by
  unfold DotDims.lhsIdx
  rw [dif_neg (show ¬(0 : Fin S1232x768.rank) ∈ dot_S1232x768_S768x1280_S1232x1280_1_0_0_1_n_n.lhsBatch by decide), dif_pos (show (0 : Fin S1232x768.rank) ∈ dot_S1232x768_S768x1280_S1232x1280_1_0_0_1_n_n.lhsNonContracting by decide)]
  rfl
theorem lhs_contr (i : S1232x1280.Idx) (q : dot_S1232x768_S768x1280_S1232x1280_1_0_0_1_n_n.contr.Idx) :
    (dot_S1232x768_S768x1280_S1232x1280_1_0_0_1_n_n.lhsIdx i q 1).val = (q ⟨0, by decide⟩).val :=
  dot_S1232x768_S768x1280_S1232x1280_1_0_0_1_n_n.lhsIdx_val_of_single rfl i q
theorem rhs_contr (i : S1232x1280.Idx) (q : dot_S1232x768_S768x1280_S1232x1280_1_0_0_1_n_n.contr.Idx) :
    (dot_S1232x768_S768x1280_S1232x1280_1_0_0_1_n_n.rhsIdx i q 0).val = (q ⟨0, by decide⟩).val :=
  dot_S1232x768_S768x1280_S1232x1280_1_0_0_1_n_n.rhsIdx_val_of_single rfl i q
theorem rhs_col (i : S1232x1280.Idx) (q : dot_S1232x768_S768x1280_S1232x1280_1_0_0_1_n_n.contr.Idx) :
    (dot_S1232x768_S768x1280_S1232x1280_1_0_0_1_n_n.rhsIdx i q 1).val = (i 1).val := by
  unfold DotDims.rhsIdx
  rw [dif_neg (show ¬(1 : Fin S768x1280.rank) ∈ dot_S1232x768_S768x1280_S1232x1280_1_0_0_1_n_n.rhsBatch by decide), dif_pos (show (1 : Fin S768x1280.rank) ∈ dot_S1232x768_S768x1280_S1232x1280_1_0_0_1_n_n.rhsNonContracting by decide)]
  rfl

/-- The product of a 1232-by-768 array with a 768-by-1280 array, entry by entry. -/
def prod (x : S1232x768.Idx → EReal) (w : S768x1280.Idx → EReal) : S1232x1280.Idx → EReal :=
  fun i => ∑ k : Fin 768, x (ix2 (i 0) k) * w (ix2 k (i 1))

/-! ## Linear kernel 0: one grid point, every block its whole array -/

/-- What the kernel stores, entry by entry: the plain product of its two loaded blocks. -/
theorem pay0_apply (x0 : Vec Ideal S1232x768 .f32) (x1 : Vec Ideal S768x1280 .bf16) (i : S1232x1280.Idx) :
    k0_pay1 (F := Ideal) x0 x1 i = prod x0 x1 i := by
  unfold k0_pay1
  rw [truncf_apply]
  refine (Cert.GraphConv.matmul_zero_sum dot_S1232x768_S768x1280_S1232x1280_1_0_0_1_n_n none rfl rfl lhs_row lhs_contr rhs_contr rhs_col _ _ i).trans ?_
  simp only [truncf_apply, shapeCast_self]
  rfl

/-- Every window's block index at the one grid point is zero on both axes. -/
theorem idx0_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input's block is the whole merged encoder array. -/
theorem iblk0_0_apply (t : Fin cfg0.N) (y : S1232x768.Idx) :
    (iblk0 V c 0 t : Vec Ideal S1232x768 .f32) y = (V c main_v9 : S1232x768.Idx → EReal) y := by
  obtain ⟨e0, e1, -, -, -, -⟩ := idx0_zero t
  unfold iblk0
  rw [View.read_apply]
  show V c main_v9 _ = V c main_v9 y
  congr 1
  funext a
  apply Fin.ext
  match a with
  | ⟨0, _⟩ => show win0_0.index t (0 : Fin 2) * 1232 + 1 * (y 0).val = (y 0).val; rw [e0]; omega
  | ⟨1, _⟩ => show win0_0.index t (1 : Fin 2) * 768 + 1 * (y 1).val = (y 1).val; rw [e1]; omega

/-- The second input's block is the whole transposed weight. -/
theorem iblk0_1_apply (t : Fin cfg0.N) (y : S768x1280.Idx) :
    (iblk0 V c 1 t : Vec Ideal S768x1280 .bf16) y = (V c main_v3 : S768x1280.Idx → EReal) y := by
  obtain ⟨-, -, e0, e1, -, -⟩ := idx0_zero t
  unfold iblk0
  rw [View.read_apply]
  show V c main_v3 _ = V c main_v3 y
  congr 1
  funext a
  apply Fin.ext
  match a with
  | ⟨0, _⟩ => show win0_1.index t (0 : Fin 2) * 768 + 1 * (y 0).val = (y 0).val; rw [e0]; omega
  | ⟨1, _⟩ => show win0_1.index t (1 : Fin 2) * 1280 + 1 * (y 1).val = (y 1).val; rw [e1]; omega

/-- What the point writes back is the block of the product of the two input arrays. -/
theorem flushed0_eq (t : Fin cfg0.N) :
    (dat0 V c).flushed 2 t = ((cfg0.win 2).blk t).view.read (Elt Ideal) (prod (V c main_v9) (V c main_v3)) := by
  show (cfg0.win 2).cut (grid0.coords t) ((dat0 V c).after 2 t) = _
  rw [after0_2]
  unfold out0_2
  rw [View.canon_unit_zero zeros2]
  simp only [View.ld_unit_zero (S := S1232x768) zeros2, View.ld_unit_zero (S := S768x1280) zeros2]
  obtain ⟨-, -, -, -, e0, e1⟩ := idx0_zero t
  funext j
  show k0_pay1 (F := Ideal) (iblk0 V c 0 t) (iblk0 V c 1 t) j = prod (V c main_v9) (V c main_v3) (((cfg0.win 2).blk t).view.emb j)
  have hj : ((cfg0.win 2).blk t).view.emb j = j := by
    funext a; apply Fin.ext
    match a with
    | ⟨0, _⟩ => show win0_2.index t (0 : Fin 2) * 1232 + 1 * (j 0).val = (j 0).val; rw [e0]; omega
    | ⟨1, _⟩ => show win0_2.index t (1 : Fin 2) * 1280 + 1 * (j 1).val = (j 1).val; rw [e1]; omega
  rw [hj, pay0_apply]
  unfold prod
  refine Finset.sum_congr rfl fun k _ => ?_
  rw [iblk0_0_apply, iblk0_1_apply]

/-- Membership in the output's block, axis by axis. -/
theorem mem_blk0 (t : Fin cfg0.N) (i : S1232x1280.Idx) :
    i ∈ ((cfg0.win 2).blk t).view.set ↔ ∀ a : Fin 2, win0_2.index t a * S1232x1280.size a ≤ (i a).val ∧ (i a).val < win0_2.index t a * S1232x1280.size a + S1232x1280.size a := by
  show i ∈ ((View.whole main_v10).slice (win0_2.rect t)).set ↔ _
  rw [View.set_slice_whole, Rect.mem_set_unit]
  exact Iff.rfl

/-- The output array after the kernel: the product of the two input arrays as the kernel finds them. -/
theorem arr0 : (dat0 V c).arrAt 2 cfg0.N = prod (V c main_v9) (V c main_v3) :=
  (dat0 V c).arrAt_eq_of_cover 2 (prod (V c main_v9) (V c main_v3)) (fun t _ => flushed0_eq c V t) fun i =>
    ⟨t0_0, flush0_2 t0_0, by
      obtain ⟨-, -, -, -, e0, e1⟩ := idx0_zero t0_0
      rw [mem_blk0]
      intro a
      have h0 : (i 0).val < 1232 := (i 0).isLt
      have h1 : (i 1).val < 1280 := (i 1).isLt
      match a with
      | ⟨0, _⟩ => show win0_2.index t0_0 (0 : Fin 2) * 1232 ≤ (i 0).val ∧ (i 0).val < win0_2.index t0_0 (0 : Fin 2) * 1232 + 1232; rw [e0]; omega
      | ⟨1, _⟩ => show win0_2.index t0_0 (1 : Fin 2) * 1280 ≤ (i 1).val ∧ (i 1).val < win0_2.index t0_0 (1 : Fin 2) * 1280 + 1280; rw [e1]; omega⟩

/-! ## Linear kernel 1: one grid point, every block its whole array -/

/-- What the kernel stores, entry by entry: the plain product of its two loaded blocks. -/
theorem pay1_apply (x0 : Vec Ideal S1232x768 .f32) (x1 : Vec Ideal S768x1280 .bf16) (i : S1232x1280.Idx) :
    k1_pay1 (F := Ideal) x0 x1 i = prod x0 x1 i := by
  unfold k1_pay1
  rw [truncf_apply]
  refine (Cert.GraphConv.matmul_zero_sum dot_S1232x768_S768x1280_S1232x1280_1_0_0_1_n_n none rfl rfl lhs_row lhs_contr rhs_contr rhs_col _ _ i).trans ?_
  simp only [truncf_apply, shapeCast_self]
  rfl

/-- Every window's block index at the one grid point is zero on both axes. -/
theorem idx1_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The first input's block is the whole merged encoder array. -/
theorem iblk1_0_apply (t : Fin cfg1.N) (y : S1232x768.Idx) :
    (iblk1 V c 0 t : Vec Ideal S1232x768 .f32) y = (V c main_v9 : S1232x768.Idx → EReal) y := by
  obtain ⟨e0, e1, -, -, -, -⟩ := idx1_zero t
  unfold iblk1
  rw [View.read_apply]
  show V c main_v9 _ = V c main_v9 y
  congr 1
  funext a
  apply Fin.ext
  match a with
  | ⟨0, _⟩ => show win1_0.index t (0 : Fin 2) * 1232 + 1 * (y 0).val = (y 0).val; rw [e0]; omega
  | ⟨1, _⟩ => show win1_0.index t (1 : Fin 2) * 768 + 1 * (y 1).val = (y 1).val; rw [e1]; omega

/-- The second input's block is the whole transposed weight. -/
theorem iblk1_1_apply (t : Fin cfg1.N) (y : S768x1280.Idx) :
    (iblk1 V c 1 t : Vec Ideal S768x1280 .bf16) y = (V c main_v5 : S768x1280.Idx → EReal) y := by
  obtain ⟨-, -, e0, e1, -, -⟩ := idx1_zero t
  unfold iblk1
  rw [View.read_apply]
  show V c main_v5 _ = V c main_v5 y
  congr 1
  funext a
  apply Fin.ext
  match a with
  | ⟨0, _⟩ => show win1_1.index t (0 : Fin 2) * 768 + 1 * (y 0).val = (y 0).val; rw [e0]; omega
  | ⟨1, _⟩ => show win1_1.index t (1 : Fin 2) * 1280 + 1 * (y 1).val = (y 1).val; rw [e1]; omega

/-- What the point writes back is the block of the product of the two input arrays. -/
theorem flushed1_eq (t : Fin cfg1.N) :
    (dat1 V c).flushed 2 t = ((cfg1.win 2).blk t).view.read (Elt Ideal) (prod (V c main_v9) (V c main_v5)) := by
  show (cfg1.win 2).cut (grid1.coords t) ((dat1 V c).after 2 t) = _
  rw [after1_2]
  unfold out1_2
  rw [View.canon_unit_zero zeros2]
  simp only [View.ld_unit_zero (S := S1232x768) zeros2, View.ld_unit_zero (S := S768x1280) zeros2]
  obtain ⟨-, -, -, -, e0, e1⟩ := idx1_zero t
  funext j
  show k1_pay1 (F := Ideal) (iblk1 V c 0 t) (iblk1 V c 1 t) j = prod (V c main_v9) (V c main_v5) (((cfg1.win 2).blk t).view.emb j)
  have hj : ((cfg1.win 2).blk t).view.emb j = j := by
    funext a; apply Fin.ext
    match a with
    | ⟨0, _⟩ => show win1_2.index t (0 : Fin 2) * 1232 + 1 * (j 0).val = (j 0).val; rw [e0]; omega
    | ⟨1, _⟩ => show win1_2.index t (1 : Fin 2) * 1280 + 1 * (j 1).val = (j 1).val; rw [e1]; omega
  rw [hj, pay1_apply]
  unfold prod
  refine Finset.sum_congr rfl fun k _ => ?_
  rw [iblk1_0_apply, iblk1_1_apply]

/-- Membership in the output's block, axis by axis. -/
theorem mem_blk1 (t : Fin cfg1.N) (i : S1232x1280.Idx) :
    i ∈ ((cfg1.win 2).blk t).view.set ↔ ∀ a : Fin 2, win1_2.index t a * S1232x1280.size a ≤ (i a).val ∧ (i a).val < win1_2.index t a * S1232x1280.size a + S1232x1280.size a := by
  show i ∈ ((View.whole main_v11).slice (win1_2.rect t)).set ↔ _
  rw [View.set_slice_whole, Rect.mem_set_unit]
  exact Iff.rfl

/-- The output array after the kernel: the product of the two input arrays as the kernel finds them. -/
theorem arr1 : (dat1 V c).arrAt 2 cfg1.N = prod (V c main_v9) (V c main_v5) :=
  (dat1 V c).arrAt_eq_of_cover 2 (prod (V c main_v9) (V c main_v5)) (fun t _ => flushed1_eq c V t) fun i =>
    ⟨t1_0, flush1_2 t1_0, by
      obtain ⟨-, -, -, -, e0, e1⟩ := idx1_zero t1_0
      rw [mem_blk1]
      intro a
      have h0 : (i 0).val < 1232 := (i 0).isLt
      have h1 : (i 1).val < 1280 := (i 1).isLt
      match a with
      | ⟨0, _⟩ => show win1_2.index t1_0 (0 : Fin 2) * 1232 ≤ (i 0).val ∧ (i 0).val < win1_2.index t1_0 (0 : Fin 2) * 1232 + 1232; rw [e0]; omega
      | ⟨1, _⟩ => show win1_2.index t1_0 (1 : Fin 2) * 1280 ≤ (i 1).val ∧ (i 1).val < win1_2.index t1_0 (1 : Fin 2) * 1280 + 1280; rw [e1]; omega⟩

end Cert.Attn.Entry

end
-- ==== Proof.KernEntry.lean ====
/-
  What six of the third kernel's arrays hold when it starts, entry by entry, in terms of the arguments as launched:
  the hidden states untouched; the query and output weights transposed; the bias as a one-row array; and the keys and
  the values, each the encoder states projected against its weight — a linear kernel's matrix product over the merged
  (batch, text) rows, whose row axis a reshape then splits back, so that row b * 77 + t becomes position (b, t).
-/
import proofs.«130863_j42743514530014_2_alg».proof.Proof.Gen.KernelIdeal.Frame
import proofs.«130863_j42743514530014_2_alg».proof.Proof.AttnSpec
import proofs.«130863_j42743514530014_2_alg».proof.Proof.LibMatmulSum
import proofs.«130863_j42743514530014_2_alg».proof.Proof.KernEntryHost
import proofs.«130863_j42743514530014_2_alg».proof.Proof.KernEntryLinear
import Idealize.ShloMosaic.Lib.Pipeline.Value
import Idealize.ShloMosaic.Lib.ValueIdx
import Idealize.ShloMosaic.Lib.StableHlo.Run

set_option maxRecDepth 16384

noncomputable section

namespace Cert.Attn.Entry

open Cert.KernelIdeal Cert.KernelIdeal.Gen Idealize.ShloMosaic Idealize.ShloMosaic.ValueIdx Idealize.ShloMosaic.TcCoe
open Idealize.ShloMosaic.Pipeline (Dat)

variable (m : (ℓ : Loc nD τ sig) → Buf (Elt Ideal) ℓ) (ρ : Dev nD → PrngReg) (c : Dev nD)

/-- Row (b, t) of the encoder states once the batch and text axes are merged. -/
def row (b : Fin 16) (t : Fin 77) : Fin 1232 := ⟨b.val * 77 + t.val, by have := b.isLt; have := t.isLt; omega⟩

/-- The merged encoder states at row (b, t) are the encoder states at (b, t). -/
theorem merged_apply (b : Fin 16) (t : Fin 77) (k : Fin 768) :
    (W1 (F := Ideal) m ρ c (Proc.devRef .tc main_v9) : S1232x768.Idx → EReal) (ix2 (row b t) k)
      = (m ((c : Thread nD τ).loc main_arg1) : S16x77x768.Idx → EReal) (ix3 b t k) := by
  rw [W1_v9]
  refine shapeCast_apply _ _ (ix2 (row b t) k) (ix3 b t k) ?_
  rw [Shape.rowMajor_val_two, Shape.rowMajor_val_three]
  rfl

/-- The product of the merged encoder states with a transposed weight, at row (b, t) and column d, is the
    projection of the encoder states at (b, t) against row d of the weight. -/
theorem prod_merged (w : FVec Ideal S1280x768 .f32) (b : Fin 16) (t : Fin 77) (d : Fin 1280) :
    prod (W1 (F := Ideal) m ρ c (Proc.devRef .tc main_v9))
        (truncf (F := Ideal) .bf16 (transpose S768x1280 [1, 0] w transposes_S1280x768_S768x1280_1_0 : FVec Ideal S768x1280 .f32) bitsLt_bf16_f32 : FVec Ideal S768x1280 .bf16)
        (ix2 (row b t) d)
      = Cert.Attn.encProj (m ((c : Thread nD τ).loc main_arg1)) w b t d := by
  unfold prod Cert.Attn.encProj
  refine Finset.sum_congr rfl fun k _ => ?_
  exact congrArg₂ (fun (p q : EReal) => p * q) (merged_apply m ρ c b t k) (transposed_enc w k d)

/-- A linear kernel's output with its row axis split back into batch and text, read at (b, t, d). -/
theorem split_apply (x : S1232x1280.Idx → EReal) (b : Fin 16) (t : Fin 77) (d : Fin 1280) :
    shapeCast S16x77x1280 x shapeCasts_S1232x1280_S16x77x1280 (ix3 b t d) = x (ix2 (row b t) d) := by
  refine shapeCast_apply _ _ (ix3 b t d) (ix2 (row b t) d) ?_
  rw [Shape.rowMajor_val_two, Shape.rowMajor_val_three]
  rfl

/-- The first linear kernel's output array when the third kernel starts. -/
theorem keys_array : (W3 (F := Ideal) m ρ c (Proc.devRef .tc main_v10) : S1232x1280.Idx → EReal)
    = prod (W1 (F := Ideal) m ρ c (Proc.devRef .tc main_v9)) (W1 (F := Ideal) m ρ c (Proc.devRef .tc main_v3)) :=
  (W3_of_ne m ρ c main_v10 (by decide)).trans ((W2_arr m ρ c 2).trans (arr0 c (V1 m ρ)))

/-- The second linear kernel finds the merged encoder states as the first host stretch left them: the first kernel
    only read them. -/
theorem merged_kept : W2 (F := Ideal) m ρ c (Proc.devRef .tc main_v9) = W1 (F := Ideal) m ρ c (Proc.devRef .tc main_v9) :=
  (W2_arr m ρ c 0).trans (((dat0 (V1 m ρ) c).arrAt_in 0 rfl _).trans (A_eq0 (V1 m ρ) c 0))

/-- The second linear kernel's output array when the third kernel starts. -/
theorem values_array : (W3 (F := Ideal) m ρ c (Proc.devRef .tc main_v11) : S1232x1280.Idx → EReal)
    = prod (W1 (F := Ideal) m ρ c (Proc.devRef .tc main_v9)) (W1 (F := Ideal) m ρ c (Proc.devRef .tc main_v5)) := by
  refine ((W3_arr m ρ c 2).trans (arr1 c (V2 m ρ))).trans ?_
  show prod (W2 (F := Ideal) m ρ c (Proc.devRef .tc main_v9)) (W2 (F := Ideal) m ρ c (Proc.devRef .tc main_v5)) = _
  rw [merged_kept, W2_of_ne m ρ c main_v5 (by decide)]

/-- The keys' buffer when the third kernel starts: the first linear kernel's output, row axis split. -/
theorem keys_split : (V4 (F := Ideal) m ρ c main_v12 : S16x77x1280.Idx → EReal)
    = shapeCast S16x77x1280 (W3 (F := Ideal) m ρ c (Proc.devRef .tc main_v10) : S1232x1280.Idx → EReal) shapeCasts_S1232x1280_S16x77x1280 := by
  show StableHlo.after hostOps2 (W3 (F := Ideal) m ρ c) (Proc.devRef .tc main_v12) = _
  after_results
  rfl

/-- The values' buffer when the third kernel starts: the second linear kernel's output, row axis split. -/
theorem values_split : (V4 (F := Ideal) m ρ c main_v13 : S16x77x1280.Idx → EReal)
    = shapeCast S16x77x1280 (W3 (F := Ideal) m ρ c (Proc.devRef .tc main_v11) : S1232x1280.Idx → EReal) shapeCasts_S1232x1280_S16x77x1280 := by
  show StableHlo.after hostOps2 (W3 (F := Ideal) m ρ c) (Proc.devRef .tc main_v13) = _
  after_results
  rfl

/-! ## The six arrays -/

theorem entry_x : V4 (F := Ideal) m ρ c main_arg0 = m ((c : Thread nD τ).loc main_arg0) :=
  (V4_eq_W1 m ρ c main_arg0 (by decide) (by decide) (by decide) (by decide)).trans
    (StableHlo.after_of_forall_not_mem (b := Proc.devRef .tc main_arg0) _ _ (List.forall_iff_forall_mem.mp (by
      simp only [hostOps0, List.Forall, StableHlo.unary_writes, StableHlo.reshape_writes, Finset.mem_singleton]
      repeat' apply And.intro
      all_goals exact StableHlo.devRef_ne_of_ne (by decide))))

theorem entry_wq (k d : Fin 1280) : (V4 (F := Ideal) m ρ c main_v1 : S1280x1280.Idx → EReal) (ix2 k d) = (m ((c : Thread nD τ).loc main_arg2) : S1280x1280.Idx → EReal) (ix2 d k) := by
  rw [V4_eq_W1 m ρ c main_v1 (by decide) (by decide) (by decide) (by decide), W1_v1]
  exact transposed_sq _ k d

theorem entry_k (b : Fin 16) (t : Fin 77) (d : Fin 1280) : (V4 (F := Ideal) m ρ c main_v12 : S16x77x1280.Idx → EReal) (ix3 b t d) = Cert.Attn.encProj (m ((c : Thread nD τ).loc main_arg1)) (m ((c : Thread nD τ).loc main_arg3)) b t d := by
  rw [keys_split, split_apply, keys_array, W1_v3]
  exact prod_merged m ρ c _ b t d

theorem entry_v (b : Fin 16) (t : Fin 77) (d : Fin 1280) : (V4 (F := Ideal) m ρ c main_v13 : S16x77x1280.Idx → EReal) (ix3 b t d) = Cert.Attn.encProj (m ((c : Thread nD τ).loc main_arg1)) (m ((c : Thread nD τ).loc main_arg4)) b t d := by
  rw [values_split, split_apply, values_array, W1_v5]
  exact prod_merged m ρ c _ b t d

theorem entry_wo (k d : Fin 1280) : (V4 (F := Ideal) m ρ c main_v7 : S1280x1280.Idx → EReal) (ix2 k d) = (m ((c : Thread nD τ).loc main_arg5) : S1280x1280.Idx → EReal) (ix2 d k) := by
  rw [V4_eq_W1 m ρ c main_v7 (by decide) (by decide) (by decide) (by decide), W1_v7]
  exact transposed_sq _ k d

theorem entry_bo (d : Fin 1280) : (V4 (F := Ideal) m ρ c main_v8 : S1x1280.Idx → EReal) (ix2 (0 : Fin 1) d) = (m ((c : Thread nD τ).loc main_arg6) : S1280.Idx → EReal) (ix1 d) := by
  rw [V4_eq_W1 m ρ c main_v8 (by decide) (by decide) (by decide) (by decide), W1_v8]
  refine shapeCast_apply _ _ (ix2 (0 : Fin 1) d) (ix1 d) ?_
  rw [Shape.rowMajor_val_one, Shape.rowMajor_val_two]
  show d.val = 0 * 1280 + d.val
  omega

end Cert.Attn.Entry

end
-- ==== Proof.KernValue.lean ====
/-
  The idealized kernel program's result, as one function of its arguments.

  The result array is the third region's output window, so at the end of the run it holds what that region's write-backs
  leave; the region is entered with the hidden states as launched, the two weights transposed, the bias as a row and the
  keys and values the first two regions computed, which is all the tile-by-tile reading asks for.
-/
import proofs.«130863_j42743514530014_2_alg».proof.Proof.KernRun
import proofs.«130863_j42743514530014_2_alg».proof.Proof.KernBlocks
import proofs.«130863_j42743514530014_2_alg».proof.Proof.KernEntry

set_option maxRecDepth 16384

noncomputable section

namespace Cert.Attn.Value

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The specification at the launch memory's argument arrays. -/
abbrev spec (c : Dev nD) : S16x4096x1280.Idx → EReal :=
  Cert.Attn.attnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The last boundary's contents of the result array are the specification's result. -/
theorem out_eq (c : Dev nD) : W5 (F := Ideal) m ρ c (Proc.devRef .tc main_v14) = spec m c :=
  (W5_arr (F := Ideal) m ρ c 6).trans
    (Cert.Attn.Blocks.final (V4 (F := Ideal) m ρ) c _ _ _ _ _ _ _
      (Cert.Attn.Entry.entry_x m ρ c) (Cert.Attn.Entry.entry_wq m ρ c) (Cert.Attn.Entry.entry_k m ρ c)
      (Cert.Attn.Entry.entry_v m ρ c) (Cert.Attn.Entry.entry_wo m ρ c) (Cert.Attn.Entry.entry_bo m ρ c))

/-- The run, with the result array at the specification's result and the arguments as launched. -/
theorem run : θ_run (defs (F := Ideal)) (onTc (τ := τ) (main (F := Ideal))) ⟨m, fun _ => 0, ρ⟩ (fun r => ∀ c : Dev nD,
      r.2.mem ((c.tc : Thread nD τ).loc main_v14) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h c).1.trans (out_eq m ρ c), (h c).2⟩)
    (Cert.Attn.Run.run_out (F := Ideal) m ρ)

end Cert.Attn.Value

end
-- ==== Proof.lean ====
/-
  Cross-attention of image positions over text positions, fused, against its plain reference: the certificate.

  Both programs compute one function of the seven argument arrays (Proof/AttnSpec.lean): linear projections to queries,
  keys and values; per head the scaled dot-product scores, their softmax over the 77 text positions and the weighted sum
  of the value lanes; the heads side by side; an output projection and a bias.  The reference spells it with whole-array
  operations (Proof/RefIsSpec.lean reads its run entry by entry).  The kernel program computes keys and values in two
  small regions and everything else in a third, tile by tile, the heads meeting in a scratch matrix
  (Proof/KernHead.lean, KernProj.lean, KernBody.lean, KernTile.lean: one tile; KernBlocks.lean: the array from its tiles;
  KernEntry.lean: what the third region is entered with; KernRun.lean, KernValue.lean: the run).  The two differ in
  layout and in the order of summation only, so no finiteness of the inputs is used; the one law beyond reindexing is
  that a product with the unit factor commutes.  The idealization pass rewrote nothing, so there is nothing to preserve.
-/
import proofs.«130863_j42743514530014_2_alg».proof.Defs
import proofs.«130863_j42743514530014_2_alg».proof.Proof.Gen.Kernel
import proofs.«130863_j42743514530014_2_alg».proof.Proof.Gen.Kernel.Skeleton
import proofs.«130863_j42743514530014_2_alg».proof.Proof.Gen.Kernel.Launch
import proofs.«130863_j42743514530014_2_alg».proof.Proof.Gen.Kernel.Points
import proofs.«130863_j42743514530014_2_alg».proof.Proof.Gen.Kernel.Frame
import proofs.«130863_j42743514530014_2_alg».proof.Proof.Gen.KernelIdeal
import proofs.«130863_j42743514530014_2_alg».proof.Proof.Gen.KernelIdeal.Skeleton
import proofs.«130863_j42743514530014_2_alg».proof.Proof.Gen.KernelIdeal.Launch
import proofs.«130863_j42743514530014_2_alg».proof.Proof.Gen.KernelIdeal.Points
import proofs.«130863_j42743514530014_2_alg».proof.Proof.Gen.KernelIdeal.Frame
import proofs.«130863_j42743514530014_2_alg».proof.Proof.Gen.ReferenceIdeal
import proofs.«130863_j42743514530014_2_alg».proof.Proof.Gen.Pre_finite_inputs
import proofs.«130863_j42743514530014_2_alg».proof.Proof.Gen.ReferenceIdeal.Run
import proofs.«130863_j42743514530014_2_alg».proof.Proof.Gen.ReferenceIdeal.Read
import proofs.«130863_j42743514530014_2_alg».proof.Proof.RefIsSpec
import proofs.«130863_j42743514530014_2_alg».proof.Proof.KernValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the specification's
    result of those arguments. -/
theorem algebraic : Cert.algebraic_KernelIdeal_ReferenceIdeal := by
  intro m ρ m' ρ' _ hagree
  refine ⟨fun c => Cert.Attn.Value.spec m c, Cert.Attn.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Attn.Ref.ref_is_spec, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
